-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S2x1600000 : Shape := ⟨2, ![2, 1600000]⟩
abbrev S768x64 : Shape := ⟨2, ![768, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x768 .f32) (main_arg1 : IVec S2x1600000 32) (main_arg2 : FVec F S768x64 .f32) (main_arg3 : FVec F S64 .f32) (main_arg4 : FVec F S64x32 .f32) (main_arg5 : FVec F S32 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x64 .f32 := Host.absf main_arg2
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x768 : Shape := ⟨2, ![100000, 768]⟩
abbrev S2x1600000 : Shape := ⟨2, ![2, 1600000]⟩
abbrev S768x64 : Shape := ⟨2, ![768, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x768 : Shape := ⟨2, ![2000, 768]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S5000x64 : Shape := ⟨2, ![5000, 64]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x768, .f32⟩
  | .hbm, ⟨1, _⟩ => ⟨S2x1600000, .i32⟩
  | .hbm, ⟨2, _⟩ => ⟨S768x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S2000x768, .f32⟩
  | .local _ .vmem, ⟨1, _⟩ => ⟨S2000x768, .f32⟩
  | .local _ .vmem, ⟨2, _⟩ => ⟨S768x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x768_S768x64_S2000x64_1_0_0_1_n_n_wf : DotDims.WF S2000x768 S768x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x768 : Shape := ⟨2, ![100000, 768]⟩
abbrev S2x1600000 : Shape := ⟨2, ![2, 1600000]⟩
abbrev S768x64 : Shape := ⟨2, ![768, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S2x1600000, .i32⟩
  | .hbm, ⟨2, _⟩ => ⟨S768x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x32, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x768_S768x64_S100000x64_1_0_0_1_n_n_wf : DotDims.WF S100000x768 S768x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel's program run from any memory, with its result named. @main is eight segments: three stretches of host
  operations, the first product's region, two stretches, the second product's region, one stretch. The buffer contents
  at the segment boundaries are a fold from the launch memory (`Gen.W0` … `Gen.W8`); every weakly fair execution
  terminates with every unscoped buffer at the last boundary's contents `Gen.W8`. The generated frame keeps of that
  only the six argument arrays; here the result array is kept as well, at `Gen.W8` of its buffer.
-/
import proofs.«117575_j17068200034897_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the six argument arrays as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«117575_j17068200034897_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.FirstProduct.lean ====
/-
  The first region of the kernel's program: the node features times the first layer's weights, [100000, 768] by [768, 64].
  The computation is tiled by rows: grid point t stages rows 2000·t, …, 2000·t + 1999 of the left operand and the whole right
  operand, multiplies them on the matrix unit (operands narrowed to bf16, which changes nothing on exact values; a zero
  accumulator), and writes the 2000 × 64 result back as rows 2000·t, … of the output array. A band of rows of a product
  is the product of that band with the right operand, so what point t writes back is its block of ONE array, the product
  of the two whole operands as the region finds them; the 50 blocks tile the output's 100000 rows, so after the run the
  output array is that product.
-/
import proofs.«117575_j17068200034897_2_alg».proof.Proof.Gen.KernelIdeal.Frame
import proofs.«117575_j17068200034897_2_alg».proof.Proof.LibMatProd
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen Cert.LibMatProd

-- the buffer contents when the region is entered, a parameter as in the frame
variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its two loaded blocks is their matrix product. -/
theorem payload_eq (x0 : FVec Ideal S2000x768 .f32) (x1 : FVec Ideal S768x64 .f32) : k0_pay1 x0 x1 = matProd x0 x1 := by
  show matmul dot_S2000x768_S768x64_S2000x64_1_0_0_1_n_n none (truncf .bf16 x0 _) (truncf .bf16 x1 _) _ = _
  exact matmul_eq dot_S2000x768_S768x64_S2000x64_1_0_0_1_n_n rfl rfl rfl rfl rfl rfl x0 x1 bitsLt_bf16_f32

/-- The printed index maps, decided once over the grid: the left operand's and the output's blocks are at block row t,
    block column 0; the right operand's one block is at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t holds rows 2000·t + p of the array the region finds. -/
theorem left_block (c : Dev nD) (t : Fin cfg0.N) (p : Fin 2000) (k : Fin 768) (hp : t.val * 2000 + p.val < 100000) :
    (iblk0 V c 0 t : FVec Ideal S2000x768 .f32) (ix2 p k)
      = (V c main_arg0 : FVec Ideal S100000x768 .f32) (ix2 ⟨t.val * 2000 + p.val, hp⟩ k) := by
  obtain ⟨e0, e1, -⟩ := index_facts t
  unfold iblk0
  rw [View.read_apply]
  refine congrArg (V c main_arg0 : S100000x768.Idx → EReal) ?_
  funext a
  apply Fin.ext
  match a with
  | ⟨0, _⟩ => show win0_0.index t 0 * 2000 + 1 * p.val = t.val * 2000 + p.val; rw [e0]; omega
  | ⟨1, _⟩ => show win0_0.index t 1 * 768 + 1 * k.val = k.val; rw [e1]; omega

/-- The right operand's block at every point is the whole array the region finds. -/
theorem right_block (c : Dev nD) (t : Fin cfg0.N) (z : S768x64.Idx) :
    (iblk0 V c 1 t : FVec Ideal S768x64 .f32) z = (V c main_arg2 : FVec Ideal S768x64 .f32) z := by
  obtain ⟨-, -, e2, e3, -⟩ := index_facts t
  unfold iblk0
  rw [View.read_apply]
  refine congrArg (V c main_arg2 : S768x64.Idx → EReal) ?_
  funext a
  apply Fin.ext
  match a with
  | ⟨0, _⟩ => show win0_1.index t 0 * 768 + 1 * (z 0).val = (z 0).val; rw [e2]; omega
  | ⟨1, _⟩ => show win0_1.index t 1 * 64 + 1 * (z 1).val = (z 1).val; rw [e3]; omega

/-- What point t writes back is block t of the product of the two arrays the region finds. -/
theorem flushed_eq (c : Dev nD) (t : Fin cfg0.N) :
    (dat0 V c).flushed 2 t = ((cfg0.win 2).blk t).view.read (Elt Ideal)
      (matProd (M := 100000) (K := 768) (N := 64) (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x768) zero_offsets, View.ld_unit_zero (S := S768x64) zero_offsets]
  obtain ⟨-, -, -, -, e4, e5⟩ := index_facts t
  funext j
  show k0_pay1 (iblk0 V c 0 t) (iblk0 V c 1 t) j
    = matProd (M := 100000) (K := 768) (N := 64) (V c main_arg0) (V c main_arg2) (((cfg0.win 2).blk t).view.emb j)
  refine (congrFun (payload_eq (iblk0 V c 0 t) (iblk0 V c 1 t)) j).trans ?_
  refine matProd_rows (M := 100000) (K := 768) (N := 64) (T := 2000) (V c main_arg0) (V c main_arg2) (iblk0 V c 0 t) (iblk0 V c 1 t) (t.val * 2000)
    (fun p k hp => left_block V c t p k hp) (fun z => right_block V c t z) j _ ?_ ?_
  · show win0_2.index t 0 * 2000 + 1 * (j 0).val = t.val * 2000 + (j 0).val; rw [e4]; omega
  · show win0_2.index t 1 * 64 + 1 * (j 1).val = (j 1).val; rw [e5]; omega

/-- An index of the output array is in point t's block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every row r of the output lies in the block of point r / 2000. -/
theorem covered (i : S100000x64.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 64 := (i 1).isLt
  obtain ⟨t, ht⟩ : ∃ t : Fin cfg0.N, t.val = (i 0).val / 2000 := ⟨⟨(i 0).val / 2000, by rw [hN]; omega⟩, rfl⟩
  obtain ⟨-, -, -, -, e4, e5⟩ := index_facts t
  refine ⟨t, flush0_2 t, ?_⟩
  rw [mem_block]
  intro a
  match a with
  | ⟨0, _⟩ => show win0_2.index t 0 * 2000 ≤ (i 0).val ∧ (i 0).val < win0_2.index t 0 * 2000 + 2000; rw [e4, ht]; omega
  | ⟨1, _⟩ => show win0_2.index t 1 * 64 ≤ (i 1).val ∧ (i 1).val < win0_2.index t 1 * 64 + 64; rw [e5]; omega

/-- The output array after the region's run: the product of the two operand arrays as the region found them. -/
theorem final (c : Dev nD) :
    (dat0 V c).arrAt 2 cfg0.N = matProd (M := 100000) (K := 768) (N := 64) (V c main_arg0) (V c main_arg2) :=
  (dat0 V c).arrAt_eq_of_cover 2 _ (fun t _ => flushed_eq V c t) covered

end Cert.KernelIdeal.FirstProduct

end
-- ==== Proof.SecondProduct.lean ====
/-
  The second region of the kernel's program: the first layer's activations times the second layer's weights, [100000, 64] by [64, 32].
  The computation is tiled by rows: grid point t stages rows 5000·t, …, 5000·t + 4999 of the left operand and the whole right
  operand, multiplies them on the matrix unit (operands narrowed to bf16, which changes nothing on exact values; a zero
  accumulator), and writes the 5000 × 32 result back as rows 5000·t, … of the output array. A band of rows of a product
  is the product of that band with the right operand, so what point t writes back is its block of ONE array, the product
  of the two whole operands as the region finds them; the 20 blocks tile the output's 100000 rows, so after the run the
  output array is that product.
-/
import proofs.«117575_j17068200034897_2_alg».proof.Proof.Gen.KernelIdeal.Frame
import proofs.«117575_j17068200034897_2_alg».proof.Proof.LibMatProd
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen Cert.LibMatProd

-- the buffer contents when the region is entered, a parameter as in the frame
variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its two loaded blocks is their matrix product. -/
theorem payload_eq (x0 : FVec Ideal S5000x64 .f32) (x1 : FVec Ideal S64x32 .f32) : k1_pay1 x0 x1 = matProd x0 x1 := by
  show matmul dot_S5000x64_S64x32_S5000x32_1_0_0_1_n_n none (truncf .bf16 (shapeCast S5000x64 x0 _) _) (truncf .bf16 x1 _) _ = _
  rw [shapeCast_self]
  exact matmul_eq dot_S5000x64_S64x32_S5000x32_1_0_0_1_n_n rfl rfl rfl rfl rfl rfl x0 x1 bitsLt_bf16_f32

/-- The printed index maps, decided once over the grid: the left operand's and the output's blocks are at block row t,
    block column 0; the right operand's one block is at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t holds rows 5000·t + p of the array the region finds. -/
theorem left_block (c : Dev nD) (t : Fin cfg1.N) (p : Fin 5000) (k : Fin 64) (hp : t.val * 5000 + p.val < 100000) :
    (iblk1 V c 0 t : FVec Ideal S5000x64 .f32) (ix2 p k)
      = (V c main_v47 : FVec Ideal S100000x64 .f32) (ix2 ⟨t.val * 5000 + p.val, hp⟩ k) := by
  obtain ⟨e0, e1, -⟩ := index_facts t
  unfold iblk1
  rw [View.read_apply]
  refine congrArg (V c main_v47 : S100000x64.Idx → EReal) ?_
  funext a
  apply Fin.ext
  match a with
  | ⟨0, _⟩ => show win1_0.index t 0 * 5000 + 1 * p.val = t.val * 5000 + p.val; rw [e0]; omega
  | ⟨1, _⟩ => show win1_0.index t 1 * 64 + 1 * k.val = k.val; rw [e1]; omega

/-- The right operand's block at every point is the whole array the region finds. -/
theorem right_block (c : Dev nD) (t : Fin cfg1.N) (z : S64x32.Idx) :
    (iblk1 V c 1 t : FVec Ideal S64x32 .f32) z = (V c main_arg4 : FVec Ideal S64x32 .f32) z := by
  obtain ⟨-, -, e2, e3, -⟩ := index_facts t
  unfold iblk1
  rw [View.read_apply]
  refine congrArg (V c main_arg4 : S64x32.Idx → EReal) ?_
  funext a
  apply Fin.ext
  match a with
  | ⟨0, _⟩ => show win1_1.index t 0 * 64 + 1 * (z 0).val = (z 0).val; rw [e2]; omega
  | ⟨1, _⟩ => show win1_1.index t 1 * 32 + 1 * (z 1).val = (z 1).val; rw [e3]; omega

/-- What point t writes back is block t of the product of the two arrays the region finds. -/
theorem flushed_eq (c : Dev nD) (t : Fin cfg1.N) :
    (dat1 V c).flushed 2 t = ((cfg1.win 2).blk t).view.read (Elt Ideal)
      (matProd (M := 100000) (K := 64) (N := 32) (V c main_v47) (V c main_arg4)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S64x32) zero_offsets]
  obtain ⟨-, -, -, -, e4, e5⟩ := index_facts t
  funext j
  show k1_pay1 (iblk1 V c 0 t) (iblk1 V c 1 t) j
    = matProd (M := 100000) (K := 64) (N := 32) (V c main_v47) (V c main_arg4) (((cfg1.win 2).blk t).view.emb j)
  refine (congrFun (payload_eq (iblk1 V c 0 t) (iblk1 V c 1 t)) j).trans ?_
  refine matProd_rows (M := 100000) (K := 64) (N := 32) (T := 5000) (V c main_v47) (V c main_arg4) (iblk1 V c 0 t) (iblk1 V c 1 t) (t.val * 5000)
    (fun p k hp => left_block V c t p k hp) (fun z => right_block V c t z) j _ ?_ ?_
  · show win1_2.index t 0 * 5000 + 1 * (j 0).val = t.val * 5000 + (j 0).val; rw [e4]; omega
  · show win1_2.index t 1 * 32 + 1 * (j 1).val = (j 1).val; rw [e5]; omega

/-- An index of the output array is in point t's block iff each coordinate is in the block's range on its axis. -/
theorem mem_block (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Every row r of the output lies in the block of point r / 5000. -/
theorem covered (i : S100000x32.Idx) : ∃ t : Fin cfg1.N, (cfg1.win 2).flush t = true ∧ i ∈ ((cfg1.win 2).blk t).view.set := by
  have hN : cfg1.N = 20 := N_1
  have hi0 : (i 0).val < 100000 := (i 0).isLt
  have hi1 : (i 1).val < 32 := (i 1).isLt
  obtain ⟨t, ht⟩ : ∃ t : Fin cfg1.N, t.val = (i 0).val / 5000 := ⟨⟨(i 0).val / 5000, by rw [hN]; omega⟩, rfl⟩
  obtain ⟨-, -, -, -, e4, e5⟩ := index_facts t
  refine ⟨t, flush1_2 t, ?_⟩
  rw [mem_block]
  intro a
  match a with
  | ⟨0, _⟩ => show win1_2.index t 0 * 5000 ≤ (i 0).val ∧ (i 0).val < win1_2.index t 0 * 5000 + 5000; rw [e4, ht]; omega
  | ⟨1, _⟩ => show win1_2.index t 1 * 32 ≤ (i 1).val ∧ (i 1).val < win1_2.index t 1 * 32 + 32; rw [e5]; omega

/-- The output array after the region's run: the product of the two operand arrays as the region found them. -/
theorem final (c : Dev nD) :
    (dat1 V c).arrAt 2 cfg1.N = matProd (M := 100000) (K := 64) (N := 32) (V c main_v47) (V c main_arg4) :=
  (dat1 V c).arrAt_eq_of_cover 2 _ (fun t _ => flushed_eq V c t) covered

end Cert.KernelIdeal.SecondProduct

end
-- ==== Proof.Convolution.lean ====
/-
  A two-layer graph convolution over 100000 nodes and 1600000 given edges, as one function of the six argument arrays.
  The edge list is extended by one self-loop per node: sources are row 0 of the edge array followed by 0, 1, …, 99999,
  targets row 1 followed by the same. A node's degree is the number of extended edges that end in it; an edge from s to t
  weighs deg(s)^(-1/2) · deg(t)^(-1/2), with 0 in place of the inverse root where the degree is not positive. An index is
  read the way array indexing reads it: a negative one has the node count added first. One layer multiplies the node
  features by a weight matrix, carries every product row along each edge scaled by the edge's weight, adds up what arrives
  at each node, and adds a bias row; the first layer's output is clipped below at zero before the second layer.
  The definitions are spelt with the host operations that both programs apply (scatter-add, gather, broadcasts), so that
  each program's result is this function of its arguments once its two products are read as `matProd`.
-/
import proofs.«117575_j17068200034897_2_alg».proof.ReferenceIdeal
import proofs.«117575_j17068200034897_2_alg».proof.Proof.Gen.ReferenceIdeal
import proofs.«117575_j17068200034897_2_alg».proof.Proof.LibMatProd

noncomputable section

namespace Cert.Gcn

open Cert.ReferenceIdeal Cert.ReferenceIdeal.Gen Cert.LibMatProd Idealize.ShloMosaic

variable {F : FTy → Type} [FloatOps F]

/-- Row `0` of the edge array followed by one self-loop per node: the source of every extended edge. -/
def sources (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Row `1` of the edge array followed by one self-loop per node: the target of every extended edge. -/
def targets (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index as array indexing reads it: a negative one has the node count 100000 added. -/
def wrapped (idx : (⟨S1700000, .i32⟩ : BufTy).Contents (Elt F)) : (⟨S1700000, .i32⟩ : BufTy).Contents (Elt F) :=
  select (cmpi .slt idx (broadcastInDim S1700000 ![] bcast_S_S1700000 (constantI S_ 32 0#32)))
    (addi idx (broadcastInDim S1700000 ![] bcast_S_S1700000 (constantI S_ 32 100000#32))) idx

/-- A list of node indices as the one-column index array a gather or a scatter takes. -/
def indexColumn (idx : (⟨S1700000, .i32⟩ : BufTy).Contents (Elt F)) : (⟨S1700000x1, .i32⟩ : BufTy).Contents (Elt F) :=
  broadcastInDim S1700000x1 ![0] bcast_S1700000_S1700000x1_0 idx

/-- The number of extended edges that end in each node: a one added at every edge's target. -/
def degree (dst : (⟨S1700000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (indexColumn dst)
    (broadcastInDim S1700000 ![] bcast_S_S1700000 (constant (F := F) S_ .f32 0x3F800000#32))

/-- deg^(-1/2) where the degree is positive, 0 elsewhere. -/
def invSqrtDegree (dst : (⟨S1700000, .i32⟩ : BufTy).Contents (Elt F)) : (⟨S100000, .f32⟩ : BufTy).Contents (Elt F) :=
  select (cmpf .ogt (degree (F := F) dst) (broadcastInDim S100000 ![] bcast_S_S100000 (constant (F := F) S_ .f32 0x00000000#32)))
    (Host.rsqrt (F := F) (degree (F := F) dst))
    (broadcastInDim S100000 ![] bcast_S_S100000 (constant (F := F) S_ .f32 0x00000000#32))

/-- The weight of each extended edge: the inverse root degree of its source times that of its target. -/
def edgeWeight (src dst : (⟨S1700000, .i32⟩ : BufTy).Contents (Elt F)) : (⟨S1700000, .f32⟩ : BufTy).Contents (Elt F) :=
  mulf (Host.gather gather_S100000_S1700000x1_S1700000_n_0_n_n_0_1_1 (invSqrtDegree (F := F) dst) (indexColumn (wrapped src)))
    (Host.gather gather_S100000_S1700000x1_S1700000_n_0_n_n_0_1_1 (invSqrtDegree (F := F) dst) (indexColumn (wrapped dst)))

/-- The first layer's aggregation: row src(e) of h, scaled by the edge's weight, added into row dst(e), over all extended
    edges e; then the bias row added to every row. -/
def aggregate64 (src dst : (⟨S1700000, .i32⟩ : BufTy).Contents (Elt F)) (wgt : (⟨S1700000, .f32⟩ : BufTy).Contents (Elt F))
    (h : (⟨S100000x64, .f32⟩ : BufTy).Contents (Elt F)) (b : (⟨S64, .f32⟩ : BufTy).Contents (Elt F)) : (⟨S100000x64, .f32⟩ : BufTy).Contents (Elt F) :=
  addf (Host.scatterAdd (F := F) scatter_S100000x64_S1700000x1_S1700000x64_1_0_0_1
      (broadcastInDim S100000x64 ![] bcast_S_S100000x64 (constant (F := F) S_ .f32 0x00000000#32))
      (indexColumn dst)
      (mulf (Host.gather gather_S100000x64_S1700000x1_S1700000x64_1_0_n_n_0_1_164 h (indexColumn (wrapped src)))
        (broadcastInDim S1700000x64 ![0, 1] bcast_S1700000x1_S1700000x64_0_1 (broadcastInDim S1700000x1 ![0] bcast_S1700000_S1700000x1_0 wgt))))
    (broadcastInDim S100000x64 ![0, 1] bcast_S1x64_S100000x64_0_1 (broadcastInDim S1x64 ![1] bcast_S64_S1x64_1 b))

/-- Clipping below at zero. -/
def relu64 (a : (⟨S100000x64, .f32⟩ : BufTy).Contents (Elt F)) : (⟨S100000x64, .f32⟩ : BufTy).Contents (Elt F) :=
  maximumf a (broadcastInDim S100000x64 ![] bcast_S_S100000x64 (constant (F := F) S_ .f32 0x00000000#32))

/-- The second layer's aggregation, over rows of 32 entries. -/
def aggregate32 (src dst : (⟨S1700000, .i32⟩ : BufTy).Contents (Elt F)) (wgt : (⟨S1700000, .f32⟩ : BufTy).Contents (Elt F))
    (h : (⟨S100000x32, .f32⟩ : BufTy).Contents (Elt F)) (b : (⟨S32, .f32⟩ : BufTy).Contents (Elt F)) : (⟨S100000x32, .f32⟩ : BufTy).Contents (Elt F) :=
  addf (Host.scatterAdd (F := F) scatter_S100000x32_S1700000x1_S1700000x32_1_0_0_1
      (broadcastInDim S100000x32 ![] bcast_S_S100000x32 (constant (F := F) S_ .f32 0x00000000#32))
      (indexColumn dst)
      (mulf (Host.gather gather_S100000x32_S1700000x1_S1700000x32_1_0_n_n_0_1_132 h (indexColumn (wrapped src)))
        (broadcastInDim S1700000x32 ![0, 1] bcast_S1700000x1_S1700000x32_0_1 (broadcastInDim S1700000x1 ![0] bcast_S1700000_S1700000x1_0 wgt))))
    (broadcastInDim S100000x32 ![0, 1] bcast_S1x32_S100000x32_0_1 (broadcastInDim S1x32 ![1] bcast_S32_S1x32_1 b))

/-- The first layer's activations: features times weights, aggregated, biased, clipped at zero. -/
def activations (x : FVec Ideal S100000x768 .f32) (ei : (⟨S2x1600000, .i32⟩ : BufTy).Contents (Elt Ideal))
    (w1 : FVec Ideal S768x64 .f32) (b1 : FVec Ideal S64 .f32) : FVec Ideal S100000x64 .f32 :=
  relu64 (F := Ideal) (aggregate64 (F := Ideal) (sources ei) (targets ei) (edgeWeight (F := Ideal) (sources ei) (targets ei))
    (matProd (M := 100000) (K := 768) (N := 64) x w1) b1)

/-- The whole function: the second layer applied to the first layer's activations. -/
def forward (x : FVec Ideal S100000x768 .f32) (ei : (⟨S2x1600000, .i32⟩ : BufTy).Contents (Elt Ideal))
    (w1 : FVec Ideal S768x64 .f32) (b1 : FVec Ideal S64 .f32) (w2 : FVec Ideal S64x32 .f32) (b2 : FVec Ideal S32 .f32) :
    FVec Ideal S100000x32 .f32 :=
  aggregate32 (F := Ideal) (sources ei) (targets ei) (edgeWeight (F := Ideal) (sources ei) (targets ei))
    (matProd (M := 100000) (K := 64) (N := 32) (activations x ei w1 b1) w2) b2

end Cert.Gcn

end
-- ==== Proof.Stretches.lean ====
/-
  The kernel program's six stretches of host operations, one at a time, over ANY contents `V` of the buffers when the
  stretch is entered: what the stretch leaves in each buffer that is read later, as a stage of the graph convolution
  (`Cert.Gcn`) of what `V` holds in the stretch's operands. The first stretch builds the extended edges' sources and
  targets from the edge array and, from the targets, the degrees, their positivity and their inverse roots; the second
  selects the inverse root where the degree is positive; the third gathers it at both ends of every edge and multiplies;
  the fourth gathers the product rows along the edges, scales, scatter-adds and adds the bias; the fifth clips at zero; the
  sixth is the fourth at 32 columns. A stretch leaves a buffer it does not write as it found it.
-/
import proofs.«117575_j17068200034897_2_alg».proof.Proof.Gen.KernelIdeal.Launch
import proofs.«117575_j17068200034897_2_alg».proof.Proof.Convolution
import Idealize.ShloMosaic.Lib.StableHlo.Run
import Idealize.ShloMosaic.PureOps.Ideal

set_option maxRecDepth 16384

noncomputable section

namespace Cert.KernelIdeal.Stretch

open Cert.KernelIdeal Cert.KernelIdeal.Gen Cert.Gcn
open Idealize.ShloMosaic Idealize.ShloMosaic.TcCoe Idealize.SL.Sem Idealize.ShloMosaic.StableHlo

variable (V : Valuation τ sig (Elt Ideal))

/-- Reads one buffer after a literal stretch of host operations: each operation's result at its own buffer is its
    function of its operands' contents, at any other buffer what was there; the reads that sit inside a concatenation's
    list of pieces are rewritten one by one afterwards. -/
local macro "read_stretch" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The first stretch: edges, degrees -/

/-- The sources of the extended edges. -/
theorem front_sources (ei : (⟨Cert.ReferenceIdeal.S2x1600000, .i32⟩ : BufTy).Contents (Elt Ideal)) (h0 : V (Proc.devRef .tc main_arg1) = ei) :
    after (hostOps0 (F := Ideal)) V (Proc.devRef .tc main_v3) = sources ei := by
  subst h0
  dsimp only [hostOps0]
  read_stretch
  rfl

/-- The targets of the extended edges. -/
theorem front_targets (ei : (⟨Cert.ReferenceIdeal.S2x1600000, .i32⟩ : BufTy).Contents (Elt Ideal)) (h0 : V (Proc.devRef .tc main_arg1) = ei) :
    after (hostOps0 (F := Ideal)) V (Proc.devRef .tc main_v6) = targets ei := by
  subst h0
  dsimp only [hostOps0]
  read_stretch
  rfl

/-- Where the degree is positive. -/
theorem front_positive (ei : (⟨Cert.ReferenceIdeal.S2x1600000, .i32⟩ : BufTy).Contents (Elt Ideal)) (h0 : V (Proc.devRef .tc main_arg1) = ei) :
    after (hostOps0 (F := Ideal)) V (Proc.devRef .tc main_v12) = cmpf .ogt (degree (F := Ideal) (targets ei)) (broadcastInDim Cert.ReferenceIdeal.S100000 ![] Cert.ReferenceIdeal.Facts₀.bcast_S_S100000 (constant (F := Ideal) Cert.ReferenceIdeal.S_ .f32 0x00000000#32)) := by
  subst h0
  dsimp only [hostOps0]
  read_stretch
  rfl

/-- The inverse square root of the degree. -/
theorem front_rsqrt (ei : (⟨Cert.ReferenceIdeal.S2x1600000, .i32⟩ : BufTy).Contents (Elt Ideal)) (h0 : V (Proc.devRef .tc main_arg1) = ei) :
    after (hostOps0 (F := Ideal)) V (Proc.devRef .tc main_v13) = Host.rsqrt (F := Ideal) (φ := .f32) (degree (F := Ideal) (targets ei)) := by
  subst h0
  dsimp only [hostOps0]
  read_stretch
  rfl

/-- The scalar zero the selection falls back to. -/
theorem front_zero   :
    after (hostOps0 (F := Ideal)) V (Proc.devRef .tc main_cst_2) = constant (F := Ideal) Cert.ReferenceIdeal.S_ .f32 0x00000000#32 := by
  dsimp only [hostOps0]
  after_results_simp <;> rfl

/-! ## The second stretch: the selection -/

/-- The inverse root where the degree is positive, the fallback elsewhere. -/
theorem select_read (p : (⟨Cert.ReferenceIdeal.S100000, .i1⟩ : BufTy).Contents (Elt Ideal)) (r : FVec Ideal Cert.ReferenceIdeal.S100000 .f32) (z : FVec Ideal Cert.ReferenceIdeal.S_ .f32) (h0 : V (Proc.devRef .tc main_v12) = p) (h1 : V (Proc.devRef .tc main_v13) = r) (h2 : V (Proc.devRef .tc main_cst_2) = z) :
    after (hostOps0_1 (F := Ideal)) V (Proc.devRef .tc main_v14) = select p r (broadcastInDim Cert.ReferenceIdeal.S100000 ![] Cert.ReferenceIdeal.Facts₀.bcast_S_S100000 z) := by
  subst h0 h1 h2
  dsimp only [hostOps0_1]
  after_results_simp
  rfl

/-- The selection writes no edge endpoint. -/
theorem select_keeps_sources : after (hostOps0_1 (F := Ideal)) V (Proc.devRef .tc main_v3) = V (Proc.devRef .tc main_v3) := by
  dsimp only [hostOps0_1]
  after_results_simp

/-- The selection writes no edge endpoint. -/
theorem select_keeps_targets : after (hostOps0_1 (F := Ideal)) V (Proc.devRef .tc main_v6) = V (Proc.devRef .tc main_v6) := by
  dsimp only [hostOps0_1]
  after_results_simp

/-! ## The third stretch: the edge weights -/

/-- The weight of every edge: the selected inverse root at its source times that at its target. -/
theorem weight_read (s : (⟨Cert.ReferenceIdeal.S1700000, .i32⟩ : BufTy).Contents (Elt Ideal)) (d : (⟨Cert.ReferenceIdeal.S1700000, .i32⟩ : BufTy).Contents (Elt Ideal)) (q : FVec Ideal Cert.ReferenceIdeal.S100000 .f32) (h0 : V (Proc.devRef .tc main_v3) = s) (h1 : V (Proc.devRef .tc main_v6) = d) (h2 : V (Proc.devRef .tc main_v14) = q) :
    after (hostOps0_2 (F := Ideal)) V (Proc.devRef .tc main_v29) = mulf (F := Ideal) (φ := .f32) (Host.gather Cert.ReferenceIdeal.gather_S100000_S1700000x1_S1700000_n_0_n_n_0_1_1 q (indexColumn (wrapped s))) (Host.gather Cert.ReferenceIdeal.gather_S100000_S1700000x1_S1700000_n_0_n_n_0_1_1 q (indexColumn (wrapped d))) := by
  subst h0 h1 h2
  dsimp only [hostOps0_2]
  read_stretch
  rfl

/-- The weights' stretch writes no edge endpoint. -/
theorem weight_keeps_sources : after (hostOps0_2 (F := Ideal)) V (Proc.devRef .tc main_v3) = V (Proc.devRef .tc main_v3) := by
  dsimp only [hostOps0_2]
  after_results_simp

/-- The weights' stretch writes no edge endpoint. -/
theorem weight_keeps_targets : after (hostOps0_2 (F := Ideal)) V (Proc.devRef .tc main_v6) = V (Proc.devRef .tc main_v6) := by
  dsimp only [hostOps0_2]
  after_results_simp

/-! ## The fourth and fifth stretches: the first layer's aggregation and clipping -/

/-- The first layer's aggregation of the product rows along the edges, plus the bias. -/
theorem aggregate_read (s : (⟨Cert.ReferenceIdeal.S1700000, .i32⟩ : BufTy).Contents (Elt Ideal)) (d : (⟨Cert.ReferenceIdeal.S1700000, .i32⟩ : BufTy).Contents (Elt Ideal)) (w : FVec Ideal Cert.ReferenceIdeal.S1700000 .f32) (h : FVec Ideal Cert.ReferenceIdeal.S100000x64 .f32) (b : FVec Ideal Cert.ReferenceIdeal.S64 .f32) (h0 : V (Proc.devRef .tc main_v3) = s) (h1 : V (Proc.devRef .tc main_v6) = d) (h2 : V (Proc.devRef .tc main_v29) = w) (h3 : V (Proc.devRef .tc main_v30) = h) (h4 : V (Proc.devRef .tc main_arg3) = b) :
    after (hostOps1 (F := Ideal)) V (Proc.devRef .tc main_v46) = aggregate64 (F := Ideal) s d w h b := by
  subst h0 h1 h2 h3 h4
  dsimp only [hostOps1]
  read_stretch
  rfl

/-- Clipping below at zero. -/
theorem clip_read (a : FVec Ideal Cert.ReferenceIdeal.S100000x64 .f32) (h0 : V (Proc.devRef .tc main_v46) = a) :
    after (hostOps1_1 (F := Ideal)) V (Proc.devRef .tc main_v47) = relu64 (F := Ideal) a := by
  subst h0
  dsimp only [hostOps1_1]
  after_results_simp
  rfl

/-- The aggregation writes none of the buffers read after it. -/
theorem aggregate_keeps_v3 : after (hostOps1 (F := Ideal)) V (Proc.devRef .tc main_v3) = V (Proc.devRef .tc main_v3) := by
  dsimp only [hostOps1]
  after_results_simp

/-- The aggregation writes none of the buffers read after it. -/
theorem aggregate_keeps_v6 : after (hostOps1 (F := Ideal)) V (Proc.devRef .tc main_v6) = V (Proc.devRef .tc main_v6) := by
  dsimp only [hostOps1]
  after_results_simp

/-- The aggregation writes none of the buffers read after it. -/
theorem aggregate_keeps_v29 : after (hostOps1 (F := Ideal)) V (Proc.devRef .tc main_v29) = V (Proc.devRef .tc main_v29) := by
  dsimp only [hostOps1]
  after_results_simp

/-- The aggregation writes none of the buffers read after it. -/
theorem aggregate_keeps_arg3 : after (hostOps1 (F := Ideal)) V (Proc.devRef .tc main_arg3) = V (Proc.devRef .tc main_arg3) := by
  dsimp only [hostOps1]
  after_results_simp

/-- The aggregation writes none of the buffers read after it. -/
theorem aggregate_keeps_arg4 : after (hostOps1 (F := Ideal)) V (Proc.devRef .tc main_arg4) = V (Proc.devRef .tc main_arg4) := by
  dsimp only [hostOps1]
  after_results_simp

/-- The aggregation writes none of the buffers read after it. -/
theorem aggregate_keeps_arg5 : after (hostOps1 (F := Ideal)) V (Proc.devRef .tc main_arg5) = V (Proc.devRef .tc main_arg5) := by
  dsimp only [hostOps1]
  after_results_simp

/-- The clipping writes none of the buffers read after it. -/
theorem clip_keeps_v3 : after (hostOps1_1 (F := Ideal)) V (Proc.devRef .tc main_v3) = V (Proc.devRef .tc main_v3) := by
  dsimp only [hostOps1_1]
  after_results_simp

/-- The clipping writes none of the buffers read after it. -/
theorem clip_keeps_v6 : after (hostOps1_1 (F := Ideal)) V (Proc.devRef .tc main_v6) = V (Proc.devRef .tc main_v6) := by
  dsimp only [hostOps1_1]
  after_results_simp

/-- The clipping writes none of the buffers read after it. -/
theorem clip_keeps_v29 : after (hostOps1_1 (F := Ideal)) V (Proc.devRef .tc main_v29) = V (Proc.devRef .tc main_v29) := by
  dsimp only [hostOps1_1]
  after_results_simp

/-- The clipping writes none of the buffers read after it. -/
theorem clip_keeps_arg3 : after (hostOps1_1 (F := Ideal)) V (Proc.devRef .tc main_arg3) = V (Proc.devRef .tc main_arg3) := by
  dsimp only [hostOps1_1]
  after_results_simp

/-- The clipping writes none of the buffers read after it. -/
theorem clip_keeps_arg4 : after (hostOps1_1 (F := Ideal)) V (Proc.devRef .tc main_arg4) = V (Proc.devRef .tc main_arg4) := by
  dsimp only [hostOps1_1]
  after_results_simp

/-- The clipping writes none of the buffers read after it. -/
theorem clip_keeps_arg5 : after (hostOps1_1 (F := Ideal)) V (Proc.devRef .tc main_arg5) = V (Proc.devRef .tc main_arg5) := by
  dsimp only [hostOps1_1]
  after_results_simp

/-! ## The sixth stretch: the second layer's aggregation -/

/-- The second layer's aggregation of the product rows along the edges, plus the bias: the result. -/
theorem result_read (s : (⟨Cert.ReferenceIdeal.S1700000, .i32⟩ : BufTy).Contents (Elt Ideal)) (d : (⟨Cert.ReferenceIdeal.S1700000, .i32⟩ : BufTy).Contents (Elt Ideal)) (w : FVec Ideal Cert.ReferenceIdeal.S1700000 .f32) (h : FVec Ideal Cert.ReferenceIdeal.S100000x32 .f32) (b : FVec Ideal Cert.ReferenceIdeal.S32 .f32) (h0 : V (Proc.devRef .tc main_v3) = s) (h1 : V (Proc.devRef .tc main_v6) = d) (h2 : V (Proc.devRef .tc main_v29) = w) (h3 : V (Proc.devRef .tc main_v48) = h) (h4 : V (Proc.devRef .tc main_arg5) = b) :
    after (hostOps2 (F := Ideal)) V (Proc.devRef .tc main_v64) = aggregate32 (F := Ideal) s d w h b := by
  subst h0 h1 h2 h3 h4
  dsimp only [hostOps2]
  read_stretch
  rfl

end Cert.KernelIdeal.Stretch

end
-- ==== Proof.Boundaries.lean ====
/-
  The contents of the kernel program's buffers at the boundaries of its eight segments, read as the stages of the graph
  convolution `Cert.Gcn.forward` of the six argument arrays. Each boundary's contents are the previous boundary's pushed
  through one stretch of host operations (Proof/Stretches.lean) or one region (Proof/FirstProduct.lean,
  Proof/SecondProduct.lean): the three stretches before the first region compute the extended edges' sources, targets and
  weights from the edge array alone; the first region leaves the features times the first weights in its output array;
  the two stretches after it aggregate along the edges, add the bias and clip; the second region leaves the activations
  times the second weights; the last stretch aggregates again and adds the second bias. A buffer no segment in between
  writes keeps its contents from one boundary to the next.
-/
import proofs.«117575_j17068200034897_2_alg».proof.Proof.Gen.KernelIdeal.Frame
import proofs.«117575_j17068200034897_2_alg».proof.Proof.FirstProduct
import proofs.«117575_j17068200034897_2_alg».proof.Proof.SecondProduct
import proofs.«117575_j17068200034897_2_alg».proof.Proof.Convolution
import proofs.«117575_j17068200034897_2_alg».proof.Proof.Stretches
import Idealize.ShloMosaic.Lib.StableHlo.Run
import Idealize.ShloMosaic.PureOps.Ideal

set_option maxRecDepth 16384

noncomputable section

namespace Cert.KernelIdeal.Result

open Cert.KernelIdeal Cert.KernelIdeal.Gen Cert.Gcn Cert.LibMatProd Cert.KernelIdeal.Stretch
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

theorem sources_at1 : W1 m ρ c (Proc.devRef .tc main_v3) = sources (m ((c.tc : Thread nD τ).loc main_arg1)) := front_sources (W0 m ρ c) _ rfl
theorem targets_at1 : W1 m ρ c (Proc.devRef .tc main_v6) = targets (m ((c.tc : Thread nD τ).loc main_arg1)) := front_targets (W0 m ρ c) _ rfl
theorem positive_at1 : W1 m ρ c (Proc.devRef .tc main_v12) = cmpf .ogt (degree (F := Ideal) (targets (m ((c.tc : Thread nD τ).loc main_arg1)))) (broadcastInDim Cert.ReferenceIdeal.S100000 ![] Cert.ReferenceIdeal.Facts₀.bcast_S_S100000 (constant (F := Ideal) Cert.ReferenceIdeal.S_ .f32 0x00000000#32)) := front_positive (W0 m ρ c) _ rfl
theorem rsqrt_at1 : W1 m ρ c (Proc.devRef .tc main_v13) = Host.rsqrt (F := Ideal) (φ := .f32) (degree (F := Ideal) (targets (m ((c.tc : Thread nD τ).loc main_arg1)))) := front_rsqrt (W0 m ρ c) _ rfl
theorem zero_at1 : W1 m ρ c (Proc.devRef .tc main_cst_2) = constant (F := Ideal) Cert.ReferenceIdeal.S_ .f32 0x00000000#32 := front_zero (W0 m ρ c)

/-! ## After the second stretch -/

theorem sources_at2 : W2 m ρ c (Proc.devRef .tc main_v3) = sources (m ((c.tc : Thread nD τ).loc main_arg1)) := (select_keeps_sources (W1 m ρ c)).trans (sources_at1 m ρ c)
theorem targets_at2 : W2 m ρ c (Proc.devRef .tc main_v6) = targets (m ((c.tc : Thread nD τ).loc main_arg1)) := (select_keeps_targets (W1 m ρ c)).trans (targets_at1 m ρ c)
theorem selected_at2 : W2 m ρ c (Proc.devRef .tc main_v14) = invSqrtDegree (F := Ideal) (targets (m ((c.tc : Thread nD τ).loc main_arg1))) :=
  select_read (W1 m ρ c) _ _ _ (positive_at1 m ρ c) (rsqrt_at1 m ρ c) (zero_at1 m ρ c)

/-! ## Before the first region: the edges and their weights, and the arguments untouched -/

theorem sources_at3 : W3 m ρ c (Proc.devRef .tc main_v3) = sources (m ((c.tc : Thread nD τ).loc main_arg1)) := (weight_keeps_sources (W2 m ρ c)).trans (sources_at2 m ρ c)
theorem targets_at3 : W3 m ρ c (Proc.devRef .tc main_v6) = targets (m ((c.tc : Thread nD τ).loc main_arg1)) := (weight_keeps_targets (W2 m ρ c)).trans (targets_at2 m ρ c)
theorem weight_at3 : W3 m ρ c (Proc.devRef .tc main_v29) = edgeWeight (F := Ideal) (sources (m ((c.tc : Thread nD τ).loc main_arg1))) (targets (m ((c.tc : Thread nD τ).loc main_arg1))) :=
  weight_read (W2 m ρ c) _ _ _ (sources_at2 m ρ c) (targets_at2 m ρ c) (selected_at2 m ρ c)

theorem arg0_at3 : W3 m ρ c (Proc.devRef .tc main_arg0) = m ((c.tc : Thread nD τ).loc main_arg0) := by
  dsimp only [W3, W2, W1, hostOps0, hostOps0_1, hostOps0_2]
  after_results_simp <;> rfl

theorem arg2_at3 : W3 m ρ c (Proc.devRef .tc main_arg2) = m ((c.tc : Thread nD τ).loc main_arg2) := by
  dsimp only [W3, W2, W1, hostOps0, hostOps0_1, hostOps0_2]
  after_results_simp <;> rfl

theorem arg3_at3 : W3 m ρ c (Proc.devRef .tc main_arg3) = m ((c.tc : Thread nD τ).loc main_arg3) := by
  dsimp only [W3, W2, W1, hostOps0, hostOps0_1, hostOps0_2]
  after_results_simp <;> rfl

theorem arg4_at3 : W3 m ρ c (Proc.devRef .tc main_arg4) = m ((c.tc : Thread nD τ).loc main_arg4) := by
  dsimp only [W3, W2, W1, hostOps0, hostOps0_1, hostOps0_2]
  after_results_simp <;> rfl

theorem arg5_at3 : W3 m ρ c (Proc.devRef .tc main_arg5) = m ((c.tc : Thread nD τ).loc main_arg5) := by
  dsimp only [W3, W2, W1, hostOps0, hostOps0_1, hostOps0_2]
  after_results_simp <;> rfl

/-! ## The first region -/

/-- The first region's output array holds the node features times the first layer's weights. -/
theorem product_at4 : W4 m ρ c (Proc.devRef .tc main_v30)
    = matProd (M := 100000) (K := 768) (N := 64) (m ((c.tc : Thread nD τ).loc main_arg0)) (m ((c.tc : Thread nD τ).loc main_arg2)) := by
  refine (W4_arr m ρ c 2).trans ?_
  rw [FirstProduct.final]
  exact congr (congrArg (matProd (M := 100000) (K := 768) (N := 64)) (arg0_at3 m ρ c)) (arg2_at3 m ρ c)

theorem keep4_v3 : W4 m ρ c (Proc.devRef .tc main_v3) = W3 m ρ c (Proc.devRef .tc main_v3) := W4_of_ne m ρ c main_v3 (by decide)
theorem keep4_v6 : W4 m ρ c (Proc.devRef .tc main_v6) = W3 m ρ c (Proc.devRef .tc main_v6) := W4_of_ne m ρ c main_v6 (by decide)
theorem keep4_v29 : W4 m ρ c (Proc.devRef .tc main_v29) = W3 m ρ c (Proc.devRef .tc main_v29) := W4_of_ne m ρ c main_v29 (by decide)
theorem keep4_arg3 : W4 m ρ c (Proc.devRef .tc main_arg3) = W3 m ρ c (Proc.devRef .tc main_arg3) := W4_of_ne m ρ c main_arg3 (by decide)
theorem keep4_arg4 : W4 m ρ c (Proc.devRef .tc main_arg4) = W3 m ρ c (Proc.devRef .tc main_arg4) := W4_of_ne m ρ c main_arg4 (by decide)
theorem keep4_arg5 : W4 m ρ c (Proc.devRef .tc main_arg5) = W3 m ρ c (Proc.devRef .tc main_arg5) := W4_of_ne m ρ c main_arg5 (by decide)

/-! ## Between the regions: the first layer's activations -/

theorem aggregate_at5 : W5 m ρ c (Proc.devRef .tc main_v46)
    = aggregate64 (F := Ideal) (sources (m ((c.tc : Thread nD τ).loc main_arg1))) (targets (m ((c.tc : Thread nD τ).loc main_arg1))) (edgeWeight (F := Ideal) (sources (m ((c.tc : Thread nD τ).loc main_arg1))) (targets (m ((c.tc : Thread nD τ).loc main_arg1)))) (matProd (M := 100000) (K := 768) (N := 64) (m ((c.tc : Thread nD τ).loc main_arg0)) (m ((c.tc : Thread nD τ).loc main_arg2))) (m ((c.tc : Thread nD τ).loc main_arg3)) :=
  aggregate_read (W4 m ρ c) _ _ _ _ _ ((keep4_v3 m ρ c).trans (sources_at3 m ρ c)) ((keep4_v6 m ρ c).trans (targets_at3 m ρ c))
    ((keep4_v29 m ρ c).trans (weight_at3 m ρ c)) (product_at4 m ρ c) ((keep4_arg3 m ρ c).trans (arg3_at3 m ρ c))

theorem keep5_v3 : W5 m ρ c (Proc.devRef .tc main_v3) = W3 m ρ c (Proc.devRef .tc main_v3) := (aggregate_keeps_v3 (W4 m ρ c)).trans (keep4_v3 m ρ c)
theorem keep5_v6 : W5 m ρ c (Proc.devRef .tc main_v6) = W3 m ρ c (Proc.devRef .tc main_v6) := (aggregate_keeps_v6 (W4 m ρ c)).trans (keep4_v6 m ρ c)
theorem keep5_v29 : W5 m ρ c (Proc.devRef .tc main_v29) = W3 m ρ c (Proc.devRef .tc main_v29) := (aggregate_keeps_v29 (W4 m ρ c)).trans (keep4_v29 m ρ c)
theorem keep5_arg3 : W5 m ρ c (Proc.devRef .tc main_arg3) = W3 m ρ c (Proc.devRef .tc main_arg3) := (aggregate_keeps_arg3 (W4 m ρ c)).trans (keep4_arg3 m ρ c)
theorem keep5_arg4 : W5 m ρ c (Proc.devRef .tc main_arg4) = W3 m ρ c (Proc.devRef .tc main_arg4) := (aggregate_keeps_arg4 (W4 m ρ c)).trans (keep4_arg4 m ρ c)
theorem keep5_arg5 : W5 m ρ c (Proc.devRef .tc main_arg5) = W3 m ρ c (Proc.devRef .tc main_arg5) := (aggregate_keeps_arg5 (W4 m ρ c)).trans (keep4_arg5 m ρ c)

theorem activations_at6 : W6 m ρ c (Proc.devRef .tc main_v47) = activations (m ((c.tc : Thread nD τ).loc main_arg0)) (m ((c.tc : Thread nD τ).loc main_arg1)) (m ((c.tc : Thread nD τ).loc main_arg2)) (m ((c.tc : Thread nD τ).loc main_arg3)) :=
  clip_read (W5 m ρ c) _ (aggregate_at5 m ρ c)

theorem keep6_v3 : W6 m ρ c (Proc.devRef .tc main_v3) = W3 m ρ c (Proc.devRef .tc main_v3) := (clip_keeps_v3 (W5 m ρ c)).trans (keep5_v3 m ρ c)
theorem keep6_v6 : W6 m ρ c (Proc.devRef .tc main_v6) = W3 m ρ c (Proc.devRef .tc main_v6) := (clip_keeps_v6 (W5 m ρ c)).trans (keep5_v6 m ρ c)
theorem keep6_v29 : W6 m ρ c (Proc.devRef .tc main_v29) = W3 m ρ c (Proc.devRef .tc main_v29) := (clip_keeps_v29 (W5 m ρ c)).trans (keep5_v29 m ρ c)
theorem keep6_arg3 : W6 m ρ c (Proc.devRef .tc main_arg3) = W3 m ρ c (Proc.devRef .tc main_arg3) := (clip_keeps_arg3 (W5 m ρ c)).trans (keep5_arg3 m ρ c)
theorem keep6_arg4 : W6 m ρ c (Proc.devRef .tc main_arg4) = W3 m ρ c (Proc.devRef .tc main_arg4) := (clip_keeps_arg4 (W5 m ρ c)).trans (keep5_arg4 m ρ c)
theorem keep6_arg5 : W6 m ρ c (Proc.devRef .tc main_arg5) = W3 m ρ c (Proc.devRef .tc main_arg5) := (clip_keeps_arg5 (W5 m ρ c)).trans (keep5_arg5 m ρ c)

/-! ## The second region -/

/-- The second region's output array holds the first layer's activations times the second layer's weights. -/
theorem product_at7 : W7 m ρ c (Proc.devRef .tc main_v48)
    = matProd (M := 100000) (K := 64) (N := 32) (activations (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine (W7_arr m ρ c 2).trans ?_
  rw [SecondProduct.final]
  exact congr (congrArg (matProd (M := 100000) (K := 64) (N := 32)) (activations_at6 m ρ c)) ((keep6_arg4 m ρ c).trans (arg4_at3 m ρ c))

theorem keep7_v3 : W7 m ρ c (Proc.devRef .tc main_v3) = W3 m ρ c (Proc.devRef .tc main_v3) :=
  (W7_of_ne m ρ c main_v3 (by decide)).trans (keep6_v3 m ρ c)
theorem keep7_v6 : W7 m ρ c (Proc.devRef .tc main_v6) = W3 m ρ c (Proc.devRef .tc main_v6) :=
  (W7_of_ne m ρ c main_v6 (by decide)).trans (keep6_v6 m ρ c)
theorem keep7_v29 : W7 m ρ c (Proc.devRef .tc main_v29) = W3 m ρ c (Proc.devRef .tc main_v29) :=
  (W7_of_ne m ρ c main_v29 (by decide)).trans (keep6_v29 m ρ c)
theorem keep7_arg5 : W7 m ρ c (Proc.devRef .tc main_arg5) = W3 m ρ c (Proc.devRef .tc main_arg5) :=
  (W7_of_ne m ρ c main_arg5 (by decide)).trans (keep6_arg5 m ρ c)

/-! ## After the second region: the result -/

/-- The result array at the last boundary is the graph convolution of the six argument arrays. -/
theorem result_at8 : W8 m ρ c (Proc.devRef .tc main_v64) = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  result_read (W7 m ρ c) _ _ _ _ _ ((keep7_v3 m ρ c).trans (sources_at3 m ρ c)) ((keep7_v6 m ρ c).trans (targets_at3 m ρ c))
    ((keep7_v29 m ρ c).trans (weight_at3 m ρ c)) (product_at7 m ρ c) ((keep7_arg5 m ρ c).trans (arg5_at3 m ρ c))

end Cert.KernelIdeal.Result

end
-- ==== Proof.RefSlices.lean ====
/-
  The reference program's line of 116 host operations cut into eleven consecutive slices, each read over ANY contents `V`
  of the buffers when the slice is entered: what the slice leaves in each buffer that is read later, as a stage of the graph
  convolution (`Cert.Gcn`) of what `V` holds in the slice's operands. The slices are those of the kernel's program — the
  edges and degrees, the selection of the inverse root, the edge weights, the aggregation, the clipping — with a host
  contraction where the kernel has a region, and with the degrees, the selection and the weights computed a second time
  before the second layer, from the same sources and targets.
-/
import proofs.«117575_j17068200034897_2_alg».proof.Proof.RefRun
import proofs.«117575_j17068200034897_2_alg».proof.Proof.Convolution
import Idealize.ShloMosaic.PureOps.Ideal

set_option maxRecDepth 16384

noncomputable section

namespace Cert.ReferenceIdeal.Slice

open Cert.ReferenceIdeal Cert.ReferenceIdeal.Gen Cert.ReferenceIdeal.ValueP Cert.Gcn
open Idealize.ShloMosaic Idealize.ShloMosaic.TcCoe Idealize.SL.Sem Idealize.ShloMosaic.StableHlo

variable (V : Valuation τ sig (Elt Ideal))

/-- Reads one buffer after a literal stretch of host operations: each operation's result at its own buffer is its
    function of its operands' contents, at any other buffer what was there; the reads that sit inside a concatenation's
    list of pieces are rewritten one by one afterwards. -/
local macro "read_line" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## Operations 1–18: edges, degrees -/

/-- The sources of the extended edges. -/
theorem front_sources (ei : (⟨S2x1600000, .i32⟩ : BufTy).Contents (Elt Ideal)) (h0 : V (Proc.devRef .tc main_arg1) = ei) :
    after (List.take 18 (List.drop 0 (ops (F := Ideal)))) V (Proc.devRef .tc main_v3) = sources ei := by
  subst h0
  simp only [ops, List.take, List.drop]
  read_line
  rfl

/-- The targets of the extended edges. -/
theorem front_targets (ei : (⟨S2x1600000, .i32⟩ : BufTy).Contents (Elt Ideal)) (h0 : V (Proc.devRef .tc main_arg1) = ei) :
    after (List.take 18 (List.drop 0 (ops (F := Ideal)))) V (Proc.devRef .tc main_v6) = targets ei := by
  subst h0
  simp only [ops, List.take, List.drop]
  read_line
  rfl

/-- Where the degree is positive. -/
theorem front_positive (ei : (⟨S2x1600000, .i32⟩ : BufTy).Contents (Elt Ideal)) (h0 : V (Proc.devRef .tc main_arg1) = ei) :
    after (List.take 18 (List.drop 0 (ops (F := Ideal)))) V (Proc.devRef .tc main_v12) = cmpf .ogt (degree (F := Ideal) (targets ei)) (broadcastInDim S100000 ![] bcast_S_S100000 (constant (F := Ideal) S_ .f32 0x00000000#32)) := by
  subst h0
  simp only [ops, List.take, List.drop]
  read_line
  rfl

/-- The inverse square root of the degree. -/
theorem front_rsqrt (ei : (⟨S2x1600000, .i32⟩ : BufTy).Contents (Elt Ideal)) (h0 : V (Proc.devRef .tc main_arg1) = ei) :
    after (List.take 18 (List.drop 0 (ops (F := Ideal)))) V (Proc.devRef .tc main_v13) = Host.rsqrt (F := Ideal) (φ := .f32) (degree (F := Ideal) (targets ei)) := by
  subst h0
  simp only [ops, List.take, List.drop]
  read_line
  rfl

/-- The scalar zero the selection falls back to. -/
theorem front_zero   :
    after (List.take 18 (List.drop 0 (ops (F := Ideal)))) V (Proc.devRef .tc main_cst_2) = constant (F := Ideal) S_ .f32 0x00000000#32 := by
  simp only [ops, List.take, List.drop]
  after_results_simp <;> rfl

/-! ## Operations 19–21: the selection -/

/-- The inverse root where the degree is positive, the fallback elsewhere. -/
theorem select_read (p : (⟨S100000, .i1⟩ : BufTy).Contents (Elt Ideal)) (r : FVec Ideal S100000 .f32) (z : FVec Ideal S_ .f32) (h0 : V (Proc.devRef .tc main_v12) = p) (h1 : V (Proc.devRef .tc main_v13) = r) (h2 : V (Proc.devRef .tc main_cst_2) = z) :
    after (List.take 3 (List.drop 18 (ops (F := Ideal)))) V (Proc.devRef .tc main_v14) = select p r (broadcastInDim S100000 ![] bcast_S_S100000 z) := by
  subst h0 h1 h2
  simp only [ops, List.take, List.drop]
  after_results_simp
  rfl

/-! ## Operations 22–40: the edge weights -/

/-- The weight of every edge: the selected inverse root at its source times that at its target. -/
theorem weight_read (s : (⟨S1700000, .i32⟩ : BufTy).Contents (Elt Ideal)) (d : (⟨S1700000, .i32⟩ : BufTy).Contents (Elt Ideal)) (q : FVec Ideal S100000 .f32) (h0 : V (Proc.devRef .tc main_v3) = s) (h1 : V (Proc.devRef .tc main_v6) = d) (h2 : V (Proc.devRef .tc main_v14) = q) :
    after (List.take 19 (List.drop 21 (ops (F := Ideal)))) V (Proc.devRef .tc main_v29) = mulf (F := Ideal) (φ := .f32) (Host.gather gather_S100000_S1700000x1_S1700000_n_0_n_n_0_1_1 q (indexColumn (wrapped s))) (Host.gather gather_S100000_S1700000x1_S1700000_n_0_n_n_0_1_1 q (indexColumn (wrapped d))) := by
  subst h0 h1 h2
  simp only [ops, List.take, List.drop]
  read_line
  rfl

/-! ## Operation 41: the first contraction -/

/-- The features contracted with the first weights. -/
theorem dot1_read (x : FVec Ideal S100000x768 .f32) (w : FVec Ideal S768x64 .f32) (h0 : V (Proc.devRef .tc main_arg0) = x) (h1 : V (Proc.devRef .tc main_arg2) = w) :
    after (List.take 1 (List.drop 40 (ops (F := Ideal)))) V (Proc.devRef .tc main_v30) = Host.dotGeneral (F := Ideal) dot_S100000x768_S768x64_S100000x64_1_0_0_1_n_n none x w := by
  subst h0 h1
  simp only [ops, List.take, List.drop]
  after_results_simp <;> rfl

/-! ## Operations 42–63: the first layer's aggregation and clipping -/

/-- The first layer's aggregation of the product rows along the edges, plus the bias. -/
theorem aggregate_read (s : (⟨S1700000, .i32⟩ : BufTy).Contents (Elt Ideal)) (d : (⟨S1700000, .i32⟩ : BufTy).Contents (Elt Ideal)) (w : FVec Ideal S1700000 .f32) (h : FVec Ideal S100000x64 .f32) (b : FVec Ideal S64 .f32) (h0 : V (Proc.devRef .tc main_v3) = s) (h1 : V (Proc.devRef .tc main_v6) = d) (h2 : V (Proc.devRef .tc main_v29) = w) (h3 : V (Proc.devRef .tc main_v30) = h) (h4 : V (Proc.devRef .tc main_arg3) = b) :
    after (List.take 19 (List.drop 41 (ops (F := Ideal)))) V (Proc.devRef .tc main_v46) = aggregate64 (F := Ideal) s d w h b := by
  subst h0 h1 h2 h3 h4
  simp only [ops, List.take, List.drop]
  read_line
  rfl

/-- Clipping below at zero. -/
theorem clip_read (a : FVec Ideal S100000x64 .f32) (h0 : V (Proc.devRef .tc main_v46) = a) :
    after (List.take 3 (List.drop 60 (ops (F := Ideal)))) V (Proc.devRef .tc main_v47) = relu64 (F := Ideal) a := by
  subst h0
  simp only [ops, List.take, List.drop]
  after_results_simp
  rfl

/-! ## Operations 64–96: degrees, selection and weights, a second time -/

/-- Where the degree is positive, recomputed from the targets. -/
theorem again_positive (d : (⟨S1700000, .i32⟩ : BufTy).Contents (Elt Ideal)) (h0 : V (Proc.devRef .tc main_v6) = d) :
    after (List.take 11 (List.drop 63 (ops (F := Ideal)))) V (Proc.devRef .tc main_v53) = cmpf .ogt (degree (F := Ideal) d) (broadcastInDim S100000 ![] bcast_S_S100000 (constant (F := Ideal) S_ .f32 0x00000000#32)) := by
  subst h0
  simp only [ops, List.take, List.drop]
  read_line
  rfl

/-- The inverse square root of the degree, recomputed. -/
theorem again_rsqrt (d : (⟨S1700000, .i32⟩ : BufTy).Contents (Elt Ideal)) (h0 : V (Proc.devRef .tc main_v6) = d) :
    after (List.take 11 (List.drop 63 (ops (F := Ideal)))) V (Proc.devRef .tc main_v54) = Host.rsqrt (F := Ideal) (φ := .f32) (degree (F := Ideal) d) := by
  subst h0
  simp only [ops, List.take, List.drop]
  read_line
  rfl

/-- The scalar zero of the second selection. -/
theorem again_zero   :
    after (List.take 11 (List.drop 63 (ops (F := Ideal)))) V (Proc.devRef .tc main_cst_12) = constant (F := Ideal) S_ .f32 0x00000000#32 := by
  simp only [ops, List.take, List.drop]
  after_results_simp <;> rfl

/-- The second selection. -/
theorem again_select_read (p : (⟨S100000, .i1⟩ : BufTy).Contents (Elt Ideal)) (r : FVec Ideal S100000 .f32) (z : FVec Ideal S_ .f32) (h0 : V (Proc.devRef .tc main_v53) = p) (h1 : V (Proc.devRef .tc main_v54) = r) (h2 : V (Proc.devRef .tc main_cst_12) = z) :
    after (List.take 3 (List.drop 74 (ops (F := Ideal)))) V (Proc.devRef .tc main_v55) = select p r (broadcastInDim S100000 ![] bcast_S_S100000 z) := by
  subst h0 h1 h2
  simp only [ops, List.take, List.drop]
  after_results_simp
  rfl

/-- The edge weights, recomputed. -/
theorem again_weight_read (s : (⟨S1700000, .i32⟩ : BufTy).Contents (Elt Ideal)) (d : (⟨S1700000, .i32⟩ : BufTy).Contents (Elt Ideal)) (q : FVec Ideal S100000 .f32) (h0 : V (Proc.devRef .tc main_v3) = s) (h1 : V (Proc.devRef .tc main_v6) = d) (h2 : V (Proc.devRef .tc main_v55) = q) :
    after (List.take 19 (List.drop 77 (ops (F := Ideal)))) V (Proc.devRef .tc main_v70) = mulf (F := Ideal) (φ := .f32) (Host.gather gather_S100000_S1700000x1_S1700000_n_0_n_n_0_1_1 q (indexColumn (wrapped s))) (Host.gather gather_S100000_S1700000x1_S1700000_n_0_n_n_0_1_1 q (indexColumn (wrapped d))) := by
  subst h0 h1 h2
  simp only [ops, List.take, List.drop]
  read_line
  rfl

/-! ## Operation 97: the second contraction -/

/-- The activations contracted with the second weights. -/
theorem dot2_read (a : FVec Ideal S100000x64 .f32) (w : FVec Ideal S64x32 .f32) (h0 : V (Proc.devRef .tc main_v47) = a) (h1 : V (Proc.devRef .tc main_arg4) = w) :
    after (List.take 1 (List.drop 96 (ops (F := Ideal)))) V (Proc.devRef .tc main_v71) = Host.dotGeneral (F := Ideal) dot_S100000x64_S64x32_S100000x32_1_0_0_1_n_n none a w := by
  subst h0 h1
  simp only [ops, List.take, List.drop]
  after_results_simp <;> rfl

/-! ## Operations 98–116: the second layer's aggregation -/

/-- The second layer's aggregation, plus the bias: the result. -/
theorem result_read (s : (⟨S1700000, .i32⟩ : BufTy).Contents (Elt Ideal)) (d : (⟨S1700000, .i32⟩ : BufTy).Contents (Elt Ideal)) (w : FVec Ideal S1700000 .f32) (h : FVec Ideal S100000x32 .f32) (b : FVec Ideal S32 .f32) (h0 : V (Proc.devRef .tc main_v3) = s) (h1 : V (Proc.devRef .tc main_v6) = d) (h2 : V (Proc.devRef .tc main_v70) = w) (h3 : V (Proc.devRef .tc main_v71) = h) (h4 : V (Proc.devRef .tc main_arg5) = b) :
    after (List.take 19 (List.drop 97 (ops (F := Ideal)))) V (Proc.devRef .tc main_v87) = aggregate32 (F := Ideal) s d w h b := by
  subst h0 h1 h2 h3 h4
  simp only [ops, List.take, List.drop]
  read_line
  rfl

/-! ## What each slice leaves alone -/

/-- A slice leaves a buffer it does not write as it found it. -/
theorem front_keeps_arg0 : after (List.take 18 (List.drop 0 (ops (F := Ideal)))) V (Proc.devRef .tc main_arg0) = V (Proc.devRef .tc main_arg0) := by
  simp only [ops, List.take, List.drop]
  after_results_simp

/-- A slice leaves a buffer it does not write as it found it. -/
theorem front_keeps_arg2 : after (List.take 18 (List.drop 0 (ops (F := Ideal)))) V (Proc.devRef .tc main_arg2) = V (Proc.devRef .tc main_arg2) := by
  simp only [ops, List.take, List.drop]
  after_results_simp

/-- A slice leaves a buffer it does not write as it found it. -/
theorem front_keeps_arg3 : after (List.take 18 (List.drop 0 (ops (F := Ideal)))) V (Proc.devRef .tc main_arg3) = V (Proc.devRef .tc main_arg3) := by
  simp only [ops, List.take, List.drop]
  after_results_simp

/-- A slice leaves a buffer it does not write as it found it. -/
theorem front_keeps_arg4 : after (List.take 18 (List.drop 0 (ops (F := Ideal)))) V (Proc.devRef .tc main_arg4) = V (Proc.devRef .tc main_arg4) := by
  simp only [ops, List.take, List.drop]
  after_results_simp

/-- A slice leaves a buffer it does not write as it found it. -/
theorem front_keeps_arg5 : after (List.take 18 (List.drop 0 (ops (F := Ideal)))) V (Proc.devRef .tc main_arg5) = V (Proc.devRef .tc main_arg5) := by
  simp only [ops, List.take, List.drop]
  after_results_simp

/-- A slice leaves a buffer it does not write as it found it. -/
theorem sel_keeps_v3 : after (List.take 3 (List.drop 18 (ops (F := Ideal)))) V (Proc.devRef .tc main_v3) = V (Proc.devRef .tc main_v3) := by
  simp only [ops, List.take, List.drop]
  after_results_simp

/-- A slice leaves a buffer it does not write as it found it. -/
theorem sel_keeps_v6 : after (List.take 3 (List.drop 18 (ops (F := Ideal)))) V (Proc.devRef .tc main_v6) = V (Proc.devRef .tc main_v6) := by
  simp only [ops, List.take, List.drop]
  after_results_simp

/-- A slice leaves a buffer it does not write as it found it. -/
theorem sel_keeps_arg0 : after (List.take 3 (List.drop 18 (ops (F := Ideal)))) V (Proc.devRef .tc main_arg0) = V (Proc.devRef .tc main_arg0) := by
  simp only [ops, List.take, List.drop]
  after_results_simp

/-- A slice leaves a buffer it does not write as it found it. -/
theorem sel_keeps_arg2 : after (List.take 3 (List.drop 18 (ops (F := Ideal)))) V (Proc.devRef .tc main_arg2) = V (Proc.devRef .tc main_arg2) := by
  simp only [ops, List.take, List.drop]
  after_results_simp

/-- A slice leaves a buffer it does not write as it found it. -/
theorem sel_keeps_arg3 : after (List.take 3 (List.drop 18 (ops (F := Ideal)))) V (Proc.devRef .tc main_arg3) = V (Proc.devRef .tc main_arg3) := by
  simp only [ops, List.take, List.drop]
  after_results_simp

/-- A slice leaves a buffer it does not write as it found it. -/
theorem sel_keeps_arg4 : after (List.take 3 (List.drop 18 (ops (F := Ideal)))) V (Proc.devRef .tc main_arg4) = V (Proc.devRef .tc main_arg4) := by
  simp only [ops, List.take, List.drop]
  after_results_simp

/-- A slice leaves a buffer it does not write as it found it. -/
theorem sel_keeps_arg5 : after (List.take 3 (List.drop 18 (ops (F := Ideal)))) V (Proc.devRef .tc main_arg5) = V (Proc.devRef .tc main_arg5) := by
  simp only [ops, List.take, List.drop]
  after_results_simp

/-- A slice leaves a buffer it does not write as it found it. -/
theorem wgt_keeps_v3 : after (List.take 19 (List.drop 21 (ops (F := Ideal)))) V (Proc.devRef .tc main_v3) = V (Proc.devRef .tc main_v3) := by
  simp only [ops, List.take, List.drop]
  after_results_simp

/-- A slice leaves a buffer it does not write as it found it. -/
theorem wgt_keeps_v6 : after (List.take 19 (List.drop 21 (ops (F := Ideal)))) V (Proc.devRef .tc main_v6) = V (Proc.devRef .tc main_v6) := by
  simp only [ops, List.take, List.drop]
  after_results_simp

/-- A slice leaves a buffer it does not write as it found it. -/
theorem wgt_keeps_arg0 : after (List.take 19 (List.drop 21 (ops (F := Ideal)))) V (Proc.devRef .tc main_arg0) = V (Proc.devRef .tc main_arg0) := by
  simp only [ops, List.take, List.drop]
  after_results_simp

/-- A slice leaves a buffer it does not write as it found it. -/
theorem wgt_keeps_arg2 : after (List.take 19 (List.drop 21 (ops (F := Ideal)))) V (Proc.devRef .tc main_arg2) = V (Proc.devRef .tc main_arg2) := by
  simp only [ops, List.take, List.drop]
  after_results_simp

/-- A slice leaves a buffer it does not write as it found it. -/
theorem wgt_keeps_arg3 : after (List.take 19 (List.drop 21 (ops (F := Ideal)))) V (Proc.devRef .tc main_arg3) = V (Proc.devRef .tc main_arg3) := by
  simp only [ops, List.take, List.drop]
  after_results_simp

/-- A slice leaves a buffer it does not write as it found it. -/
theorem wgt_keeps_arg4 : after (List.take 19 (List.drop 21 (ops (F := Ideal)))) V (Proc.devRef .tc main_arg4) = V (Proc.devRef .tc main_arg4) := by
  simp only [ops, List.take, List.drop]
  after_results_simp

/-- A slice leaves a buffer it does not write as it found it. -/
theorem wgt_keeps_arg5 : after (List.take 19 (List.drop 21 (ops (F := Ideal)))) V (Proc.devRef .tc main_arg5) = V (Proc.devRef .tc main_arg5) := by
  simp only [ops, List.take, List.drop]
  after_results_simp

/-- A slice leaves a buffer it does not write as it found it. -/
theorem dot1_keeps_v3 : after (List.take 1 (List.drop 40 (ops (F := Ideal)))) V (Proc.devRef .tc main_v3) = V (Proc.devRef .tc main_v3) := by
  simp only [ops, List.take, List.drop]
  after_results_simp

/-- A slice leaves a buffer it does not write as it found it. -/
theorem dot1_keeps_v6 : after (List.take 1 (List.drop 40 (ops (F := Ideal)))) V (Proc.devRef .tc main_v6) = V (Proc.devRef .tc main_v6) := by
  simp only [ops, List.take, List.drop]
  after_results_simp

/-- A slice leaves a buffer it does not write as it found it. -/
theorem dot1_keeps_v29 : after (List.take 1 (List.drop 40 (ops (F := Ideal)))) V (Proc.devRef .tc main_v29) = V (Proc.devRef .tc main_v29) := by
  simp only [ops, List.take, List.drop]
  after_results_simp

/-- A slice leaves a buffer it does not write as it found it. -/
theorem dot1_keeps_arg3 : after (List.take 1 (List.drop 40 (ops (F := Ideal)))) V (Proc.devRef .tc main_arg3) = V (Proc.devRef .tc main_arg3) := by
  simp only [ops, List.take, List.drop]
  after_results_simp

/-- A slice leaves a buffer it does not write as it found it. -/
theorem dot1_keeps_arg4 : after (List.take 1 (List.drop 40 (ops (F := Ideal)))) V (Proc.devRef .tc main_arg4) = V (Proc.devRef .tc main_arg4) := by
  simp only [ops, List.take, List.drop]
  after_results_simp

/-- A slice leaves a buffer it does not write as it found it. -/
theorem dot1_keeps_arg5 : after (List.take 1 (List.drop 40 (ops (F := Ideal)))) V (Proc.devRef .tc main_arg5) = V (Proc.devRef .tc main_arg5) := by
  simp only [ops, List.take, List.drop]
  after_results_simp

/-- A slice leaves a buffer it does not write as it found it. -/
theorem agg_keeps_v3 : after (List.take 19 (List.drop 41 (ops (F := Ideal)))) V (Proc.devRef .tc main_v3) = V (Proc.devRef .tc main_v3) := by
  simp only [ops, List.take, List.drop]
  after_results_simp

/-- A slice leaves a buffer it does not write as it found it. -/
theorem agg_keeps_v6 : after (List.take 19 (List.drop 41 (ops (F := Ideal)))) V (Proc.devRef .tc main_v6) = V (Proc.devRef .tc main_v6) := by
  simp only [ops, List.take, List.drop]
  after_results_simp

/-- A slice leaves a buffer it does not write as it found it. -/
theorem agg_keeps_arg4 : after (List.take 19 (List.drop 41 (ops (F := Ideal)))) V (Proc.devRef .tc main_arg4) = V (Proc.devRef .tc main_arg4) := by
  simp only [ops, List.take, List.drop]
  after_results_simp

/-- A slice leaves a buffer it does not write as it found it. -/
theorem agg_keeps_arg5 : after (List.take 19 (List.drop 41 (ops (F := Ideal)))) V (Proc.devRef .tc main_arg5) = V (Proc.devRef .tc main_arg5) := by
  simp only [ops, List.take, List.drop]
  after_results_simp

/-- A slice leaves a buffer it does not write as it found it. -/
theorem clip_keeps_v3 : after (List.take 3 (List.drop 60 (ops (F := Ideal)))) V (Proc.devRef .tc main_v3) = V (Proc.devRef .tc main_v3) := by
  simp only [ops, List.take, List.drop]
  after_results_simp

/-- A slice leaves a buffer it does not write as it found it. -/
theorem clip_keeps_v6 : after (List.take 3 (List.drop 60 (ops (F := Ideal)))) V (Proc.devRef .tc main_v6) = V (Proc.devRef .tc main_v6) := by
  simp only [ops, List.take, List.drop]
  after_results_simp

/-- A slice leaves a buffer it does not write as it found it. -/
theorem clip_keeps_arg4 : after (List.take 3 (List.drop 60 (ops (F := Ideal)))) V (Proc.devRef .tc main_arg4) = V (Proc.devRef .tc main_arg4) := by
  simp only [ops, List.take, List.drop]
  after_results_simp

/-- A slice leaves a buffer it does not write as it found it. -/
theorem clip_keeps_arg5 : after (List.take 3 (List.drop 60 (ops (F := Ideal)))) V (Proc.devRef .tc main_arg5) = V (Proc.devRef .tc main_arg5) := by
  simp only [ops, List.take, List.drop]
  after_results_simp

/-- A slice leaves a buffer it does not write as it found it. -/
theorem again_keeps_v3 : after (List.take 11 (List.drop 63 (ops (F := Ideal)))) V (Proc.devRef .tc main_v3) = V (Proc.devRef .tc main_v3) := by
  simp only [ops, List.take, List.drop]
  after_results_simp

/-- A slice leaves a buffer it does not write as it found it. -/
theorem again_keeps_v6 : after (List.take 11 (List.drop 63 (ops (F := Ideal)))) V (Proc.devRef .tc main_v6) = V (Proc.devRef .tc main_v6) := by
  simp only [ops, List.take, List.drop]
  after_results_simp

/-- A slice leaves a buffer it does not write as it found it. -/
theorem again_keeps_v47 : after (List.take 11 (List.drop 63 (ops (F := Ideal)))) V (Proc.devRef .tc main_v47) = V (Proc.devRef .tc main_v47) := by
  simp only [ops, List.take, List.drop]
  after_results_simp

/-- A slice leaves a buffer it does not write as it found it. -/
theorem again_keeps_arg4 : after (List.take 11 (List.drop 63 (ops (F := Ideal)))) V (Proc.devRef .tc main_arg4) = V (Proc.devRef .tc main_arg4) := by
  simp only [ops, List.take, List.drop]
  after_results_simp

/-- A slice leaves a buffer it does not write as it found it. -/
theorem again_keeps_arg5 : after (List.take 11 (List.drop 63 (ops (F := Ideal)))) V (Proc.devRef .tc main_arg5) = V (Proc.devRef .tc main_arg5) := by
  simp only [ops, List.take, List.drop]
  after_results_simp

/-- A slice leaves a buffer it does not write as it found it. -/
theorem againsel_keeps_v3 : after (List.take 3 (List.drop 74 (ops (F := Ideal)))) V (Proc.devRef .tc main_v3) = V (Proc.devRef .tc main_v3) := by
  simp only [ops, List.take, List.drop]
  after_results_simp

/-- A slice leaves a buffer it does not write as it found it. -/
theorem againsel_keeps_v6 : after (List.take 3 (List.drop 74 (ops (F := Ideal)))) V (Proc.devRef .tc main_v6) = V (Proc.devRef .tc main_v6) := by
  simp only [ops, List.take, List.drop]
  after_results_simp

/-- A slice leaves a buffer it does not write as it found it. -/
theorem againsel_keeps_v47 : after (List.take 3 (List.drop 74 (ops (F := Ideal)))) V (Proc.devRef .tc main_v47) = V (Proc.devRef .tc main_v47) := by
  simp only [ops, List.take, List.drop]
  after_results_simp

/-- A slice leaves a buffer it does not write as it found it. -/
theorem againsel_keeps_arg4 : after (List.take 3 (List.drop 74 (ops (F := Ideal)))) V (Proc.devRef .tc main_arg4) = V (Proc.devRef .tc main_arg4) := by
  simp only [ops, List.take, List.drop]
  after_results_simp

/-- A slice leaves a buffer it does not write as it found it. -/
theorem againsel_keeps_arg5 : after (List.take 3 (List.drop 74 (ops (F := Ideal)))) V (Proc.devRef .tc main_arg5) = V (Proc.devRef .tc main_arg5) := by
  simp only [ops, List.take, List.drop]
  after_results_simp

/-- A slice leaves a buffer it does not write as it found it. -/
theorem againwgt_keeps_v3 : after (List.take 19 (List.drop 77 (ops (F := Ideal)))) V (Proc.devRef .tc main_v3) = V (Proc.devRef .tc main_v3) := by
  simp only [ops, List.take, List.drop]
  after_results_simp

/-- A slice leaves a buffer it does not write as it found it. -/
theorem againwgt_keeps_v6 : after (List.take 19 (List.drop 77 (ops (F := Ideal)))) V (Proc.devRef .tc main_v6) = V (Proc.devRef .tc main_v6) := by
  simp only [ops, List.take, List.drop]
  after_results_simp

/-- A slice leaves a buffer it does not write as it found it. -/
theorem againwgt_keeps_v47 : after (List.take 19 (List.drop 77 (ops (F := Ideal)))) V (Proc.devRef .tc main_v47) = V (Proc.devRef .tc main_v47) := by
  simp only [ops, List.take, List.drop]
  after_results_simp

/-- A slice leaves a buffer it does not write as it found it. -/
theorem againwgt_keeps_arg4 : after (List.take 19 (List.drop 77 (ops (F := Ideal)))) V (Proc.devRef .tc main_arg4) = V (Proc.devRef .tc main_arg4) := by
  simp only [ops, List.take, List.drop]
  after_results_simp

/-- A slice leaves a buffer it does not write as it found it. -/
theorem againwgt_keeps_arg5 : after (List.take 19 (List.drop 77 (ops (F := Ideal)))) V (Proc.devRef .tc main_arg5) = V (Proc.devRef .tc main_arg5) := by
  simp only [ops, List.take, List.drop]
  after_results_simp

/-- A slice leaves a buffer it does not write as it found it. -/
theorem dot2_keeps_v3 : after (List.take 1 (List.drop 96 (ops (F := Ideal)))) V (Proc.devRef .tc main_v3) = V (Proc.devRef .tc main_v3) := by
  simp only [ops, List.take, List.drop]
  after_results_simp

/-- A slice leaves a buffer it does not write as it found it. -/
theorem dot2_keeps_v6 : after (List.take 1 (List.drop 96 (ops (F := Ideal)))) V (Proc.devRef .tc main_v6) = V (Proc.devRef .tc main_v6) := by
  simp only [ops, List.take, List.drop]
  after_results_simp

/-- A slice leaves a buffer it does not write as it found it. -/
theorem dot2_keeps_v70 : after (List.take 1 (List.drop 96 (ops (F := Ideal)))) V (Proc.devRef .tc main_v70) = V (Proc.devRef .tc main_v70) := by
  simp only [ops, List.take, List.drop]
  after_results_simp

/-- A slice leaves a buffer it does not write as it found it. -/
theorem dot2_keeps_arg5 : after (List.take 1 (List.drop 96 (ops (F := Ideal)))) V (Proc.devRef .tc main_arg5) = V (Proc.devRef .tc main_arg5) := by
  simp only [ops, List.take, List.drop]
  after_results_simp

end Cert.ReferenceIdeal.Slice

end
-- ==== Proof.Reference.lean ====
/-
  The reference program's result as the graph convolution `Cert.Gcn.forward` of its six argument arrays. Its @main is one
  line of 116 host operations, which is the eleven slices of Proof/RefSlices.lean one after the other; the buffer contents
  after each slice are those before it pushed through the slice. The reference computes the degrees, the selection and
  the edge weights a second time before its second layer, from the same sources and targets, so the second weights are
  the first; its two contractions are matrix products (`Cert.LibMatProd.host_dot_eq`).
-/
import proofs.«117575_j17068200034897_2_alg».proof.Proof.RefRun
import proofs.«117575_j17068200034897_2_alg».proof.Proof.RefSlices
import proofs.«117575_j17068200034897_2_alg».proof.Proof.Convolution
import Idealize.ShloMosaic.PureOps.Ideal

set_option maxRecDepth 16384

noncomputable section

namespace Cert.ReferenceIdeal.Result

open Cert.ReferenceIdeal Cert.ReferenceIdeal.Gen Cert.ReferenceIdeal.ValueP Cert.ReferenceIdeal.Slice Cert.Gcn Cert.LibMatProd
open Idealize.ShloMosaic Idealize.ShloMosaic.TcCoe Idealize.SL.Sem Idealize.ShloMosaic.StableHlo

/-- Two lines of operations run one after the other leave what the second leaves from what the first left. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The 116 operations are the eleven slices in order. -/
theorem ops_slices : (ops (F := Ideal)) = List.take 18 (List.drop 0 (ops (F := Ideal)))
    ++ List.take 3 (List.drop 18 (ops (F := Ideal)))
    ++ List.take 19 (List.drop 21 (ops (F := Ideal)))
    ++ List.take 1 (List.drop 40 (ops (F := Ideal)))
    ++ List.take 19 (List.drop 41 (ops (F := Ideal)))
    ++ List.take 3 (List.drop 60 (ops (F := Ideal)))
    ++ List.take 11 (List.drop 63 (ops (F := Ideal)))
    ++ List.take 3 (List.drop 74 (ops (F := Ideal)))
    ++ List.take 19 (List.drop 77 (ops (F := Ideal)))
    ++ List.take 1 (List.drop 96 (ops (F := Ideal)))
    ++ List.take 19 (List.drop 97 (ops (F := Ideal))) := by
  simp only [ops, List.take, List.drop, List.cons_append, List.nil_append]

variable (m : (ℓ : Loc nD τ sig) → Buf (Elt Ideal) ℓ) (c : Dev nD)

/-- The buffer contents at launch, and after each slice. -/
abbrev C0 : Valuation τ sig (Elt Ideal) := launchContents m c
abbrev C1 : Valuation τ sig (Elt Ideal) := after (List.take 18 (List.drop 0 (ops (F := Ideal)))) (C0 m c)
abbrev C2 : Valuation τ sig (Elt Ideal) := after (List.take 3 (List.drop 18 (ops (F := Ideal)))) (C1 m c)
abbrev C3 : Valuation τ sig (Elt Ideal) := after (List.take 19 (List.drop 21 (ops (F := Ideal)))) (C2 m c)
abbrev C4 : Valuation τ sig (Elt Ideal) := after (List.take 1 (List.drop 40 (ops (F := Ideal)))) (C3 m c)
abbrev C5 : Valuation τ sig (Elt Ideal) := after (List.take 19 (List.drop 41 (ops (F := Ideal)))) (C4 m c)
abbrev C6 : Valuation τ sig (Elt Ideal) := after (List.take 3 (List.drop 60 (ops (F := Ideal)))) (C5 m c)
abbrev C7 : Valuation τ sig (Elt Ideal) := after (List.take 11 (List.drop 63 (ops (F := Ideal)))) (C6 m c)
abbrev C8 : Valuation τ sig (Elt Ideal) := after (List.take 3 (List.drop 74 (ops (F := Ideal)))) (C7 m c)
abbrev C9 : Valuation τ sig (Elt Ideal) := after (List.take 19 (List.drop 77 (ops (F := Ideal)))) (C8 m c)
abbrev C10 : Valuation τ sig (Elt Ideal) := after (List.take 1 (List.drop 96 (ops (F := Ideal)))) (C9 m c)
abbrev C11 : Valuation τ sig (Elt Ideal) := after (List.take 19 (List.drop 97 (ops (F := Ideal)))) (C10 m c)

/-- The whole line leaves what the last slice leaves. -/
theorem after_ops : after (ops (F := Ideal)) (launchContents m c) = C11 m c := by
  conv_lhs => rw [ops_slices]
  simp only [after_append]

/-! ## After operations 1–18 -/

theorem at1_v3 : C1 m c (Proc.devRef .tc main_v3) = sources (m ((c.tc : Thread nD τ).loc main_arg1)) := front_sources (C0 m c) _ rfl
theorem at1_v6 : C1 m c (Proc.devRef .tc main_v6) = targets (m ((c.tc : Thread nD τ).loc main_arg1)) := front_targets (C0 m c) _ rfl
theorem at1_v12 : C1 m c (Proc.devRef .tc main_v12) = cmpf .ogt (degree (F := Ideal) (targets (m ((c.tc : Thread nD τ).loc main_arg1)))) (broadcastInDim S100000 ![] bcast_S_S100000 (constant (F := Ideal) S_ .f32 0x00000000#32)) := front_positive (C0 m c) _ rfl
theorem at1_v13 : C1 m c (Proc.devRef .tc main_v13) = Host.rsqrt (F := Ideal) (φ := .f32) (degree (F := Ideal) (targets (m ((c.tc : Thread nD τ).loc main_arg1)))) := front_rsqrt (C0 m c) _ rfl
theorem at1_cst_2 : C1 m c (Proc.devRef .tc main_cst_2) = constant (F := Ideal) S_ .f32 0x00000000#32 := front_zero (C0 m c)
theorem at1_arg0 : C1 m c (Proc.devRef .tc main_arg0) = m ((c.tc : Thread nD τ).loc main_arg0) := (front_keeps_arg0 (C0 m c)).trans rfl
theorem at1_arg2 : C1 m c (Proc.devRef .tc main_arg2) = m ((c.tc : Thread nD τ).loc main_arg2) := (front_keeps_arg2 (C0 m c)).trans rfl
theorem at1_arg3 : C1 m c (Proc.devRef .tc main_arg3) = m ((c.tc : Thread nD τ).loc main_arg3) := (front_keeps_arg3 (C0 m c)).trans rfl
theorem at1_arg4 : C1 m c (Proc.devRef .tc main_arg4) = m ((c.tc : Thread nD τ).loc main_arg4) := (front_keeps_arg4 (C0 m c)).trans rfl
theorem at1_arg5 : C1 m c (Proc.devRef .tc main_arg5) = m ((c.tc : Thread nD τ).loc main_arg5) := (front_keeps_arg5 (C0 m c)).trans rfl

/-! ## After operations 19–21 -/

theorem at2_v14 : C2 m c (Proc.devRef .tc main_v14) = invSqrtDegree (F := Ideal) (targets (m ((c.tc : Thread nD τ).loc main_arg1))) :=
  select_read (C1 m c) _ _ _ (at1_v12 m c) (at1_v13 m c) (at1_cst_2 m c)
theorem at2_v3 : C2 m c (Proc.devRef .tc main_v3) = sources (m ((c.tc : Thread nD τ).loc main_arg1)) := (sel_keeps_v3 (C1 m c)).trans (at1_v3 m c)
theorem at2_v6 : C2 m c (Proc.devRef .tc main_v6) = targets (m ((c.tc : Thread nD τ).loc main_arg1)) := (sel_keeps_v6 (C1 m c)).trans (at1_v6 m c)
theorem at2_arg0 : C2 m c (Proc.devRef .tc main_arg0) = m ((c.tc : Thread nD τ).loc main_arg0) := (sel_keeps_arg0 (C1 m c)).trans (at1_arg0 m c)
theorem at2_arg2 : C2 m c (Proc.devRef .tc main_arg2) = m ((c.tc : Thread nD τ).loc main_arg2) := (sel_keeps_arg2 (C1 m c)).trans (at1_arg2 m c)
theorem at2_arg3 : C2 m c (Proc.devRef .tc main_arg3) = m ((c.tc : Thread nD τ).loc main_arg3) := (sel_keeps_arg3 (C1 m c)).trans (at1_arg3 m c)
theorem at2_arg4 : C2 m c (Proc.devRef .tc main_arg4) = m ((c.tc : Thread nD τ).loc main_arg4) := (sel_keeps_arg4 (C1 m c)).trans (at1_arg4 m c)
theorem at2_arg5 : C2 m c (Proc.devRef .tc main_arg5) = m ((c.tc : Thread nD τ).loc main_arg5) := (sel_keeps_arg5 (C1 m c)).trans (at1_arg5 m c)

/-! ## After operations 22–40 -/

theorem at3_v29 : C3 m c (Proc.devRef .tc main_v29) = edgeWeight (F := Ideal) (sources (m ((c.tc : Thread nD τ).loc main_arg1))) (targets (m ((c.tc : Thread nD τ).loc main_arg1))) :=
  weight_read (C2 m c) _ _ _ (at2_v3 m c) (at2_v6 m c) (at2_v14 m c)
theorem at3_v3 : C3 m c (Proc.devRef .tc main_v3) = sources (m ((c.tc : Thread nD τ).loc main_arg1)) := (wgt_keeps_v3 (C2 m c)).trans (at2_v3 m c)
theorem at3_v6 : C3 m c (Proc.devRef .tc main_v6) = targets (m ((c.tc : Thread nD τ).loc main_arg1)) := (wgt_keeps_v6 (C2 m c)).trans (at2_v6 m c)
theorem at3_arg0 : C3 m c (Proc.devRef .tc main_arg0) = m ((c.tc : Thread nD τ).loc main_arg0) := (wgt_keeps_arg0 (C2 m c)).trans (at2_arg0 m c)
theorem at3_arg2 : C3 m c (Proc.devRef .tc main_arg2) = m ((c.tc : Thread nD τ).loc main_arg2) := (wgt_keeps_arg2 (C2 m c)).trans (at2_arg2 m c)
theorem at3_arg3 : C3 m c (Proc.devRef .tc main_arg3) = m ((c.tc : Thread nD τ).loc main_arg3) := (wgt_keeps_arg3 (C2 m c)).trans (at2_arg3 m c)
theorem at3_arg4 : C3 m c (Proc.devRef .tc main_arg4) = m ((c.tc : Thread nD τ).loc main_arg4) := (wgt_keeps_arg4 (C2 m c)).trans (at2_arg4 m c)
theorem at3_arg5 : C3 m c (Proc.devRef .tc main_arg5) = m ((c.tc : Thread nD τ).loc main_arg5) := (wgt_keeps_arg5 (C2 m c)).trans (at2_arg5 m c)

/-! ## After operation 41 -/

theorem at4_v30 : C4 m c (Proc.devRef .tc main_v30) = matProd (M := 100000) (K := 768) (N := 64) (m ((c.tc : Thread nD τ).loc main_arg0)) (m ((c.tc : Thread nD τ).loc main_arg2)) :=
  (dot1_read (C3 m c) _ _ (at3_arg0 m c) (at3_arg2 m c)).trans
    (host_dot_eq dot_S100000x768_S768x64_S100000x64_1_0_0_1_n_n rfl rfl rfl rfl rfl rfl _ _)
theorem at4_v3 : C4 m c (Proc.devRef .tc main_v3) = sources (m ((c.tc : Thread nD τ).loc main_arg1)) := (dot1_keeps_v3 (C3 m c)).trans (at3_v3 m c)
theorem at4_v6 : C4 m c (Proc.devRef .tc main_v6) = targets (m ((c.tc : Thread nD τ).loc main_arg1)) := (dot1_keeps_v6 (C3 m c)).trans (at3_v6 m c)
theorem at4_v29 : C4 m c (Proc.devRef .tc main_v29) = edgeWeight (F := Ideal) (sources (m ((c.tc : Thread nD τ).loc main_arg1))) (targets (m ((c.tc : Thread nD τ).loc main_arg1))) := (dot1_keeps_v29 (C3 m c)).trans (at3_v29 m c)
theorem at4_arg3 : C4 m c (Proc.devRef .tc main_arg3) = m ((c.tc : Thread nD τ).loc main_arg3) := (dot1_keeps_arg3 (C3 m c)).trans (at3_arg3 m c)
theorem at4_arg4 : C4 m c (Proc.devRef .tc main_arg4) = m ((c.tc : Thread nD τ).loc main_arg4) := (dot1_keeps_arg4 (C3 m c)).trans (at3_arg4 m c)
theorem at4_arg5 : C4 m c (Proc.devRef .tc main_arg5) = m ((c.tc : Thread nD τ).loc main_arg5) := (dot1_keeps_arg5 (C3 m c)).trans (at3_arg5 m c)

/-! ## After operations 42–60 -/

theorem at5_v46 : C5 m c (Proc.devRef .tc main_v46) = aggregate64 (F := Ideal) (sources (m ((c.tc : Thread nD τ).loc main_arg1))) (targets (m ((c.tc : Thread nD τ).loc main_arg1))) (edgeWeight (F := Ideal) (sources (m ((c.tc : Thread nD τ).loc main_arg1))) (targets (m ((c.tc : Thread nD τ).loc main_arg1)))) (matProd (M := 100000) (K := 768) (N := 64) (m ((c.tc : Thread nD τ).loc main_arg0)) (m ((c.tc : Thread nD τ).loc main_arg2))) (m ((c.tc : Thread nD τ).loc main_arg3)) :=
  aggregate_read (C4 m c) _ _ _ _ _ (at4_v3 m c) (at4_v6 m c) (at4_v29 m c) (at4_v30 m c) (at4_arg3 m c)
theorem at5_v3 : C5 m c (Proc.devRef .tc main_v3) = sources (m ((c.tc : Thread nD τ).loc main_arg1)) := (agg_keeps_v3 (C4 m c)).trans (at4_v3 m c)
theorem at5_v6 : C5 m c (Proc.devRef .tc main_v6) = targets (m ((c.tc : Thread nD τ).loc main_arg1)) := (agg_keeps_v6 (C4 m c)).trans (at4_v6 m c)
theorem at5_arg4 : C5 m c (Proc.devRef .tc main_arg4) = m ((c.tc : Thread nD τ).loc main_arg4) := (agg_keeps_arg4 (C4 m c)).trans (at4_arg4 m c)
theorem at5_arg5 : C5 m c (Proc.devRef .tc main_arg5) = m ((c.tc : Thread nD τ).loc main_arg5) := (agg_keeps_arg5 (C4 m c)).trans (at4_arg5 m c)

/-! ## After operations 61–63 -/

theorem at6_v47 : C6 m c (Proc.devRef .tc main_v47) = activations (m ((c.tc : Thread nD τ).loc main_arg0)) (m ((c.tc : Thread nD τ).loc main_arg1)) (m ((c.tc : Thread nD τ).loc main_arg2)) (m ((c.tc : Thread nD τ).loc main_arg3)) :=
  clip_read (C5 m c) _ (at5_v46 m c)
theorem at6_v3 : C6 m c (Proc.devRef .tc main_v3) = sources (m ((c.tc : Thread nD τ).loc main_arg1)) := (clip_keeps_v3 (C5 m c)).trans (at5_v3 m c)
theorem at6_v6 : C6 m c (Proc.devRef .tc main_v6) = targets (m ((c.tc : Thread nD τ).loc main_arg1)) := (clip_keeps_v6 (C5 m c)).trans (at5_v6 m c)
theorem at6_arg4 : C6 m c (Proc.devRef .tc main_arg4) = m ((c.tc : Thread nD τ).loc main_arg4) := (clip_keeps_arg4 (C5 m c)).trans (at5_arg4 m c)
theorem at6_arg5 : C6 m c (Proc.devRef .tc main_arg5) = m ((c.tc : Thread nD τ).loc main_arg5) := (clip_keeps_arg5 (C5 m c)).trans (at5_arg5 m c)

/-! ## After operations 64–74 -/

theorem at7_v53 : C7 m c (Proc.devRef .tc main_v53) = cmpf .ogt (degree (F := Ideal) (targets (m ((c.tc : Thread nD τ).loc main_arg1)))) (broadcastInDim S100000 ![] bcast_S_S100000 (constant (F := Ideal) S_ .f32 0x00000000#32)) :=
  again_positive (C6 m c) _ (at6_v6 m c)
theorem at7_v54 : C7 m c (Proc.devRef .tc main_v54) = Host.rsqrt (F := Ideal) (φ := .f32) (degree (F := Ideal) (targets (m ((c.tc : Thread nD τ).loc main_arg1)))) :=
  again_rsqrt (C6 m c) _ (at6_v6 m c)
theorem at7_cst_12 : C7 m c (Proc.devRef .tc main_cst_12) = constant (F := Ideal) S_ .f32 0x00000000#32 :=
  again_zero (C6 m c)
theorem at7_v3 : C7 m c (Proc.devRef .tc main_v3) = sources (m ((c.tc : Thread nD τ).loc main_arg1)) := (again_keeps_v3 (C6 m c)).trans (at6_v3 m c)
theorem at7_v6 : C7 m c (Proc.devRef .tc main_v6) = targets (m ((c.tc : Thread nD τ).loc main_arg1)) := (again_keeps_v6 (C6 m c)).trans (at6_v6 m c)
theorem at7_v47 : C7 m c (Proc.devRef .tc main_v47) = activations (m ((c.tc : Thread nD τ).loc main_arg0)) (m ((c.tc : Thread nD τ).loc main_arg1)) (m ((c.tc : Thread nD τ).loc main_arg2)) (m ((c.tc : Thread nD τ).loc main_arg3)) := (again_keeps_v47 (C6 m c)).trans (at6_v47 m c)
theorem at7_arg4 : C7 m c (Proc.devRef .tc main_arg4) = m ((c.tc : Thread nD τ).loc main_arg4) := (again_keeps_arg4 (C6 m c)).trans (at6_arg4 m c)
theorem at7_arg5 : C7 m c (Proc.devRef .tc main_arg5) = m ((c.tc : Thread nD τ).loc main_arg5) := (again_keeps_arg5 (C6 m c)).trans (at6_arg5 m c)

/-! ## After operations 75–77 -/

theorem at8_v55 : C8 m c (Proc.devRef .tc main_v55) = invSqrtDegree (F := Ideal) (targets (m ((c.tc : Thread nD τ).loc main_arg1))) :=
  again_select_read (C7 m c) _ _ _ (at7_v53 m c) (at7_v54 m c) (at7_cst_12 m c)
theorem at8_v3 : C8 m c (Proc.devRef .tc main_v3) = sources (m ((c.tc : Thread nD τ).loc main_arg1)) := (againsel_keeps_v3 (C7 m c)).trans (at7_v3 m c)
theorem at8_v6 : C8 m c (Proc.devRef .tc main_v6) = targets (m ((c.tc : Thread nD τ).loc main_arg1)) := (againsel_keeps_v6 (C7 m c)).trans (at7_v6 m c)
theorem at8_v47 : C8 m c (Proc.devRef .tc main_v47) = activations (m ((c.tc : Thread nD τ).loc main_arg0)) (m ((c.tc : Thread nD τ).loc main_arg1)) (m ((c.tc : Thread nD τ).loc main_arg2)) (m ((c.tc : Thread nD τ).loc main_arg3)) := (againsel_keeps_v47 (C7 m c)).trans (at7_v47 m c)
theorem at8_arg4 : C8 m c (Proc.devRef .tc main_arg4) = m ((c.tc : Thread nD τ).loc main_arg4) := (againsel_keeps_arg4 (C7 m c)).trans (at7_arg4 m c)
theorem at8_arg5 : C8 m c (Proc.devRef .tc main_arg5) = m ((c.tc : Thread nD τ).loc main_arg5) := (againsel_keeps_arg5 (C7 m c)).trans (at7_arg5 m c)

/-! ## After operations 78–96 -/

theorem at9_v70 : C9 m c (Proc.devRef .tc main_v70) = edgeWeight (F := Ideal) (sources (m ((c.tc : Thread nD τ).loc main_arg1))) (targets (m ((c.tc : Thread nD τ).loc main_arg1))) :=
  again_weight_read (C8 m c) _ _ _ (at8_v3 m c) (at8_v6 m c) (at8_v55 m c)
theorem at9_v3 : C9 m c (Proc.devRef .tc main_v3) = sources (m ((c.tc : Thread nD τ).loc main_arg1)) := (againwgt_keeps_v3 (C8 m c)).trans (at8_v3 m c)
theorem at9_v6 : C9 m c (Proc.devRef .tc main_v6) = targets (m ((c.tc : Thread nD τ).loc main_arg1)) := (againwgt_keeps_v6 (C8 m c)).trans (at8_v6 m c)
theorem at9_v47 : C9 m c (Proc.devRef .tc main_v47) = activations (m ((c.tc : Thread nD τ).loc main_arg0)) (m ((c.tc : Thread nD τ).loc main_arg1)) (m ((c.tc : Thread nD τ).loc main_arg2)) (m ((c.tc : Thread nD τ).loc main_arg3)) := (againwgt_keeps_v47 (C8 m c)).trans (at8_v47 m c)
theorem at9_arg4 : C9 m c (Proc.devRef .tc main_arg4) = m ((c.tc : Thread nD τ).loc main_arg4) := (againwgt_keeps_arg4 (C8 m c)).trans (at8_arg4 m c)
theorem at9_arg5 : C9 m c (Proc.devRef .tc main_arg5) = m ((c.tc : Thread nD τ).loc main_arg5) := (againwgt_keeps_arg5 (C8 m c)).trans (at8_arg5 m c)

/-! ## After operation 97 -/

theorem at10_v71 : C10 m c (Proc.devRef .tc main_v71) = matProd (M := 100000) (K := 64) (N := 32) (activations (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (dot2_read (C9 m c) _ _ (at9_v47 m c) (at9_arg4 m c)).trans
    (host_dot_eq dot_S100000x64_S64x32_S100000x32_1_0_0_1_n_n rfl rfl rfl rfl rfl rfl _ _)
theorem at10_v3 : C10 m c (Proc.devRef .tc main_v3) = sources (m ((c.tc : Thread nD τ).loc main_arg1)) := (dot2_keeps_v3 (C9 m c)).trans (at9_v3 m c)
theorem at10_v6 : C10 m c (Proc.devRef .tc main_v6) = targets (m ((c.tc : Thread nD τ).loc main_arg1)) := (dot2_keeps_v6 (C9 m c)).trans (at9_v6 m c)
theorem at10_v70 : C10 m c (Proc.devRef .tc main_v70) = edgeWeight (F := Ideal) (sources (m ((c.tc : Thread nD τ).loc main_arg1))) (targets (m ((c.tc : Thread nD τ).loc main_arg1))) := (dot2_keeps_v70 (C9 m c)).trans (at9_v70 m c)
theorem at10_arg5 : C10 m c (Proc.devRef .tc main_arg5) = m ((c.tc : Thread nD τ).loc main_arg5) := (dot2_keeps_arg5 (C9 m c)).trans (at9_arg5 m c)

/-! ## After operations 98–116: the result -/

theorem at11_v87 : C11 m c (Proc.devRef .tc main_v87) = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  result_read (C10 m c) _ _ _ _ _ (at10_v3 m c) (at10_v6 m c) (at10_v70 m c) (at10_v71 m c) (at10_arg5 m c)

/-- The result buffer after the reference's line of operations is the graph convolution of the launch contents of the
    six arguments. -/
theorem result_eq : after (ops (F := Ideal)) (launchContents m c) (Proc.devRef .tc main_v87)
    = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (congrFun (after_ops m c) (Proc.devRef .tc main_v87)).trans (at11_v87 m c)

end Cert.ReferenceIdeal.Result

end
-- ==== Proof.lean ====
/-
  The kernel computes a two-layer graph convolution with its two feature products on the matrix unit, tiled by rows, and
  everything else (degrees, edge weights, gather, scatter-add, bias, clipping) by host operations; the reference computes
  the same with host contractions in place of the two products and the edge weights once per layer. On the extended reals
  a row-tiled product of operands narrowed to bf16 into zero accumulators is the matrix product, and so is a host
  contraction (`Cert.LibMatProd.matmul_eq`, `host_dot_eq`, `matProd_rows`); every other operation is literally the same on both
  sides. So both programs end with `Cert.Gcn.forward` of the six argument arrays: the kernel's result by reading its eight
  segments boundary by boundary (Proof/Boundaries.lean over Proof/KernelRun.lean, the two regions by Proof/FirstProduct.lean
  and Proof/SecondProduct.lean), the reference's by reading its one line of operations (Proof/Reference.lean over
  Proof/RefRun.lean). No finiteness of the inputs is used: no algebraic law beyond the reading of the two products is needed.
-/
import proofs.«117575_j17068200034897_2_alg».proof.Defs
import proofs.«117575_j17068200034897_2_alg».proof.Proof.Gen.Kernel
import proofs.«117575_j17068200034897_2_alg».proof.Proof.Gen.Kernel.Skeleton
import proofs.«117575_j17068200034897_2_alg».proof.Proof.Gen.Kernel.Launch
import proofs.«117575_j17068200034897_2_alg».proof.Proof.Gen.Kernel.Points
import proofs.«117575_j17068200034897_2_alg».proof.Proof.Gen.Kernel.Frame
import proofs.«117575_j17068200034897_2_alg».proof.Proof.Gen.KernelIdeal
import proofs.«117575_j17068200034897_2_alg».proof.Proof.Gen.KernelIdeal.Skeleton
import proofs.«117575_j17068200034897_2_alg».proof.Proof.Gen.KernelIdeal.Launch
import proofs.«117575_j17068200034897_2_alg».proof.Proof.Gen.KernelIdeal.Points
import proofs.«117575_j17068200034897_2_alg».proof.Proof.Gen.KernelIdeal.Frame
import proofs.«117575_j17068200034897_2_alg».proof.Proof.Gen.ReferenceIdeal
import proofs.«117575_j17068200034897_2_alg».proof.Proof.Gen.Pre_finite_inputs
import proofs.«117575_j17068200034897_2_alg».proof.Proof.KernelRun
import proofs.«117575_j17068200034897_2_alg».proof.Proof.Boundaries
import proofs.«117575_j17068200034897_2_alg».proof.Proof.RefRun
import proofs.«117575_j17068200034897_2_alg».proof.Proof.Reference
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote nothing in the kernel. -/
theorem preserves : Cert.preserves_Kernel_KernelIdeal := trivial

/-- From memories that agree on the arguments both idealized programs end with the graph convolution of the arguments
    in their result arrays. -/
theorem algebraic : Cert.algebraic_KernelIdeal_ReferenceIdeal := by
  intro m ρ m' ρ' _ hagree
  refine ⟨fun c => Cert.Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_at8 m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.Result.result_eq m' c, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
